-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg7 : FVec F S40 .f32) (main_v33 : IVec S_ 1) : IVec S_ 1 :=
  let main_v34 : FVec F S40 .f32 := Host.absf main_arg7
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  main_v38

def fn_part1 {F : FTy → Type} [FloatOps F] (main_arg4 : FVec F S128x64 .f32) (main_arg5 : FVec F S64 .f32) (main_arg6 : FVec F S64x40 .f32) (main_arg7 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x40 .f32 := Host.absf main_arg6
  let main_cst_10 : FVec F S_ .f32 := constant S_ .f32 0x7F800000#32
  let main_v30 : FVec F S64x40 .f32 := broadcastInDim S64x40 ![] bcast_S_S64x40 main_cst_10
  let main_v31 : IVec S64x40 1 := cmpf .olt main_v29 main_v30
  let main_c_11 : IVec S_ 1 := constantI S_ 1 1#1
  let main_v32 : IVec S_ 1 := (fun x v => Host.reduce IntOp.andi x v reducesTo_S64x40_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) (main_arg6 : FVec F S64x40 .f32) (main_arg7 : FVec F S40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x128 : Shape := ⟨2, ![1, 128]⟩
abbrev S1x64 : Shape := ⟨2, ![1, 64]⟩
abbrev S1x40 : Shape := ⟨2, ![1, 40]⟩
abbrev S10000x64 : Shape := ⟨2, ![10000, 64]⟩
abbrev S10000x40 : Shape := ⟨2, ![10000, 40]⟩
abbrev S400x10000 : Shape := ⟨2, ![400, 10000]⟩
abbrev S400x64 : Shape := ⟨2, ![400, 64]⟩
abbrev S400x128 : Shape := ⟨2, ![400, 128]⟩
abbrev S400x40 : Shape := ⟨2, ![400, 40]⟩
abbrev S400 : Shape := ⟨1, ![400]⟩
abbrev S400x1 : Shape := ⟨2, ![400, 1]⟩

abbrev nBuf : Space → Nat
  | .hbm => 17
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S10000x128, .bf16⟩
  | .hbm, ⟨9, _⟩ => ⟨S128x128, .bf16⟩
  | .hbm, ⟨10, _⟩ => ⟨S128x64, .bf16⟩
  | .hbm, ⟨11, _⟩ => ⟨S64x40, .bf16⟩
  | .hbm, ⟨12, _⟩ => ⟨S1x128, .f32⟩
  | .hbm, ⟨13, _⟩ => ⟨S1x64, .f32⟩
  | .hbm, ⟨14, _⟩ => ⟨S1x40, .f32⟩
  | .hbm, ⟨15, _⟩ => ⟨S10000x64, .bf16⟩
  | .hbm, ⟨16, _⟩ => ⟨S10000x40, .f32⟩
  | .local _ .vmem, ⟨0, _⟩ => ⟨S400x10000, .f32⟩
  | .local _ .vmem, ⟨1, _⟩ => ⟨S400x10000, .f32⟩
  | .local _ .vmem, ⟨2, _⟩ => ⟨S10000x128, .bf16⟩
  | .local _ .vmem, ⟨3, _⟩ => ⟨S128x128, .bf16⟩
  | .local _ .vmem, ⟨4, _⟩ => ⟨S1x128, .f32⟩
  | .local _ .vmem, ⟨5, _⟩ => ⟨S128x64, .bf16⟩
  | .local _ .vmem, ⟨6, _⟩ => ⟨S400x64, .bf16⟩
  | .local _ .vmem, ⟨7, _⟩ => ⟨S400x64, .bf16⟩
  | .local _ .vmem, ⟨8, _⟩ => ⟨S400x10000, .f32⟩
  | .local _ .vmem, ⟨9, _⟩ => ⟨S400x10000, .f32⟩
  | .local _ .vmem, ⟨10, _⟩ => ⟨S10000x64, .bf16⟩
  | .local _ .vmem, ⟨11, _⟩ => ⟨S1x64, .f32⟩
  | .local _ .vmem, ⟨12, _⟩ => ⟨S64x40, .bf16⟩
  | .local _ .vmem, ⟨13, _⟩ => ⟨S1x40, .f32⟩
  | .local _ .vmem, ⟨14, _⟩ => ⟨S400x40, .f32⟩
  | .local _ .vmem, ⟨15, _⟩ => ⟨S400x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x40 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bitsLt_bf16_f32 : FTy.bits .bf16 < FTy.bits .f32
  shapeCasts_S128_S1x128 : S128.ShapeCasts S1x128
  shapeCasts_S64_S1x64 : S64.ShapeCasts S1x64
  shapeCasts_S40_S1x40 : S40.ShapeCasts S1x40
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S400x64_S400x64_0_0 : ∀ a, (![0, 0] : Fin 2 → Nat) a + S400x64.size a ≤ S400x64.size a
  h_S400x64 : 0 < S400x64.numel
  packedbf16_S400x64_S400x64_0_0 : (Rect.unit (s := S400x64) ![0, 0] S400x64.size inb_S400x64_S400x64_0_0).PackedRows (EltTy.packing .bf16)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x40_S64x40_0_0 : ∀ a, (![0, 0] : Fin 2 → Nat) a + S64x40.size a ≤ S64x40.size a
  h_S64x40 : 0 < S64x40.numel
  shapeCasts_S64x40_S64x40 : S64x40.ShapeCasts S64x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S400x40 : S1x40.Broadcasts S400x40
  reduces_S400x40_S400 : S400x40.Reduces [1] S400
  shapeCasts_S400_S400x1 : S400.ShapeCasts S400x1
  broadcasts_S400x1_S400x40 : S400x1.Broadcasts S400x40
  inb_S400x40_S400x40_0_0 : ∀ a, (![0, 0] : Fin 2 → Nat) a + S400x40.size a ≤ S400x40.size a
  h_S400x40 : 0 < S400x40.numel
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  dot_S400x64_S64x40_S400x40_1_0_0_1_n_n_wf : DotDims.WF S400x64 S64x40 S400x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .bf16 = 32 ∨ (Rect.block (s := S128x64) S128x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x64.size a ≤ S10000x64.size a
  hwx0_5 : ∀ i : grid0.Coords, EltTy.bits .bf16 = 32 ∨ (Rect.block (s := S10000x64) S400x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .bf16 = 32 ∨ (Rect.block (s := S10000x64) S10000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x40.size a ≤ S64x40.size a
  hwx1_3 : ∀ i : grid1.Coords, EltTy.bits .bf16 = 32 ∨ (Rect.block (s := S64x40) S64x40.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x40.size a ≤ S1x40.size a
  hwx1_4 : ∀ i : grid1.Coords, EltTy.bits .f32 = 32 ∨ (Rect.block (s := S1x40) S1x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x40.size a ≤ S10000x40.size a
  hwx1_5 : ∀ i : grid1.Coords, EltTy.bits .f32 = 32 ∨ (Rect.block (s := S10000x40) S400x40.size (cc1_transform_5 i) (hinb1_5 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x40_S400x40_1_0_0_1_n_n : DotDims S400x64 S64x40 S400x40 where
  lhsContracting := [1]
  rhsContracting := [0]
  lhsNonContracting := [0]
  rhsNonContracting := [1]
  lhsBatch := []
  rhsBatch := []
  wf := dot_S400x64_S64x40_S400x40_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v7) S400x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v7) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v5) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v3) S64x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v6) S1x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v0) S400x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x128 : Shape := ⟨2, ![1, 128]⟩
abbrev S_ : Shape := ⟨0, ![]⟩
abbrev S10000x64 : Shape := ⟨2, ![10000, 64]⟩
abbrev S1x64 : Shape := ⟨2, ![1, 64]⟩
abbrev S10000x40 : Shape := ⟨2, ![10000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 43
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S10000x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x64, .f32⟩
  | .hbm, ⟨17, _⟩ => ⟨S10000x64, .f32⟩
  | .hbm, ⟨18, _⟩ => ⟨S1x64, .f32⟩
  | .hbm, ⟨19, _⟩ => ⟨S10000x64, .f32⟩
  | .hbm, ⟨20, _⟩ => ⟨S10000x64, .f32⟩
  | .hbm, ⟨21, _⟩ => ⟨S_, .f32⟩
  | .hbm, ⟨22, _⟩ => ⟨S10000x64, .f32⟩
  | .hbm, ⟨23, _⟩ => ⟨S10000x64, .f32⟩
  | .hbm, ⟨24, _⟩ => ⟨S10000x40, .f32⟩
  | .hbm, ⟨25, _⟩ => ⟨S1x40, .f32⟩
  | .hbm, ⟨26, _⟩ => ⟨S10000x40, .f32⟩
  | .hbm, ⟨27, _⟩ => ⟨S10000x40, .f32⟩
  | .hbm, ⟨28, _⟩ => ⟨S_, .f32⟩
  | .hbm, ⟨29, _⟩ => ⟨S10000, .f32⟩
  | .hbm, ⟨30, _⟩ => ⟨S_, .f32⟩
  | .hbm, ⟨31, _⟩ => ⟨S10000, .f32⟩
  | .hbm, ⟨32, _⟩ => ⟨S10000, .f32⟩
  | .hbm, ⟨33, _⟩ => ⟨S10000x1, .f32⟩
  | .hbm, ⟨34, _⟩ => ⟨S10000x40, .f32⟩
  | .hbm, ⟨35, _⟩ => ⟨S10000x40, .f32⟩
  | .hbm, ⟨36, _⟩ => ⟨S10000x40, .f32⟩
  | .hbm, ⟨37, _⟩ => ⟨S_, .f32⟩
  | .hbm, ⟨38, _⟩ => ⟨S10000, .f32⟩
  | .hbm, ⟨39, _⟩ => ⟨S10000x1, .f32⟩
  | .hbm, ⟨40, _⟩ => ⟨S10000x1, .f32⟩
  | .hbm, ⟨41, _⟩ => ⟨S10000x40, .f32⟩
  | .hbm, ⟨42, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_call0_cst_0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_cst_1 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_v18 : Ref sig .tc := ⟨.hbm, 42, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  reducesTo_S10000x40_S10000_d1 : S10000x40.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x40_0_1 : S10000x1.BroadcastsInDim S10000x40 (![0, 1] : Fin 2 → Fin S10000x40.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x40_S10000x40_1_0_0_1_n_n_wf : DotDims.WF S10000x64 S64x40 S10000x40 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf

class Facts : Prop extends Facts₀ where

variable [Facts]
-- ==== Proof.KernelRun.lean ====
/-
  The idealized kernel's run with its result NAMED. The program is a stretch of host operations (the format changes of
  the features and weights, the biases re-laid as one-row matrices) followed by two grid regions. Every weakly fair
  execution terminates, nothing faults, the eight argument arrays end as launched, and the result array ends at the last
  boundary's contents of its buffer: what the second region's write-backs leave there. The final state is read against
  the last thread state, which holds every unscoped buffer at that boundary's contents; the result buffer is one of them.
-/
import proofs.«134880_g22385369546847_retrytranche2_1003_2_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates without a fault; the result buffer ends at the last
    boundary's contents `W3 … main_v0`, and each argument array ends as launched. -/
theorem run_named : θ_run defs (onTc (τ := τ) (main (F := F))) ⟨m, fun _ => 0, ρ⟩ (fun r => ∀ c : Dev nD,
      r.2.mem ((c.tc : Thread nD τ).loc main_v0) = W3 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v0 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c)⟩)

end Cert.KernelIdeal.Named

end
-- ==== Proof.HostSide.lean ====
/-
  What the two grid regions find in their windows' arrays. Before the first region the host changes the float format of
  the features and of the three weight matrices — the identity on the extended reals — and re-lays each bias vector as
  a one-row matrix, whose entry (0, k) is the vector's entry k. The adjacency matrix is touched by no host operation.
  Between the regions nothing but the first region's own output array changes.
-/
import proofs.«134880_g22385369546847_retrytranche2_1003_2_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## At the first region's entry -/

/-- The adjacency matrix is as launched. -/
theorem V1_adj (c : Dev nD) : V1 m ρ c main_arg1 = m ((c : Thread nD τ).loc main_arg1) := by
  show StableHlo.after hostOps0 (W0 m ρ c) (Proc.devRef .tc main_arg1) = _
  after_results

/-- The features in the narrower format are the features. -/
theorem V1_x (c : Dev nD) : (V1 m ρ c main_call0_v0 : S10000x128.Idx → EReal) = m ((c : Thread nD τ).loc main_arg0) := by
  show StableHlo.after hostOps0 (W0 m ρ c) (Proc.devRef .tc main_call0_v0) = _
  after_results
  rfl

/-- The first weight matrix likewise. -/
theorem V1_w1 (c : Dev nD) : (V1 m ρ c main_call0_v1 : S128x128.Idx → EReal) = m ((c : Thread nD τ).loc main_arg2) := by
  show StableHlo.after hostOps0 (W0 m ρ c) (Proc.devRef .tc main_call0_v1) = _
  after_results
  rfl

/-- The second weight matrix likewise. -/
theorem V1_w2 (c : Dev nD) : (V1 m ρ c main_call0_v2 : S128x64.Idx → EReal) = m ((c : Thread nD τ).loc main_arg4) := by
  show StableHlo.after hostOps0 (W0 m ρ c) (Proc.devRef .tc main_call0_v2) = _
  after_results
  rfl

/-- The third weight matrix likewise. -/
theorem V1_w3 (c : Dev nD) : (V1 m ρ c main_call0_v3 : S64x40.Idx → EReal) = m ((c : Thread nD τ).loc main_arg6) := by
  show StableHlo.after hostOps0 (W0 m ρ c) (Proc.devRef .tc main_call0_v3) = _
  after_results
  rfl

/-- The first bias as a one-row matrix: its entry (0, k) is the vector's entry k. -/
theorem V1_b1 (c : Dev nD) (k : Fin 128) :
    (V1 m ρ c main_call0_v4 : S1x128.Idx → EReal) (ix2 0 k) = m ((c : Thread nD τ).loc main_arg3) (ix1 k) := by
  show StableHlo.after hostOps0 (W0 m ρ c) (Proc.devRef .tc main_call0_v4) (ix2 0 k) = _
  after_results
  show shapeCast S1x128 (m ((c : Thread nD τ).loc main_arg3)) _ (ix2 0 k) = _
  refine shapeCast_apply _ _ _ (ix1 k) ?_
  rw [Shape.rowMajor_val_one, Shape.rowMajor_val_two]
  show k.val = 0 * 128 + k.val
  omega

/-- The second bias as a one-row matrix. -/
theorem V1_b2 (c : Dev nD) (n : Fin 64) :
    (V1 m ρ c main_call0_v5 : S1x64.Idx → EReal) (ix2 0 n) = m ((c : Thread nD τ).loc main_arg5) (ix1 n) := by
  show StableHlo.after hostOps0 (W0 m ρ c) (Proc.devRef .tc main_call0_v5) (ix2 0 n) = _
  after_results
  show shapeCast S1x64 (m ((c : Thread nD τ).loc main_arg5)) _ (ix2 0 n) = _
  refine shapeCast_apply _ _ _ (ix1 n) ?_
  rw [Shape.rowMajor_val_one, Shape.rowMajor_val_two]
  show n.val = 0 * 64 + n.val
  omega

/-- The third bias as a one-row matrix. -/
theorem V1_b3 (c : Dev nD) (q : Fin 40) :
    (V1 m ρ c main_call0_v6 : S1x40.Idx → EReal) (ix2 0 q) = m ((c : Thread nD τ).loc main_arg7) (ix1 q) := by
  show StableHlo.after hostOps0 (W0 m ρ c) (Proc.devRef .tc main_call0_v6) (ix2 0 q) = _
  after_results
  show shapeCast S1x40 (m ((c : Thread nD τ).loc main_arg7)) _ (ix2 0 q) = _
  refine shapeCast_apply _ _ _ (ix1 q) ?_
  rw [Shape.rowMajor_val_one, Shape.rowMajor_val_two]
  show q.val = 0 * 40 + q.val
  omega

/-! ## At the second region's entry: only the first region's output array has changed -/

/-- The adjacency matrix, an input of the first region, is still as launched. -/
theorem V2_adj (c : Dev nD) : V2 m ρ c main_arg1 = m ((c : Thread nD τ).loc main_arg1) :=
  (W2_arr m ρ c 0).trans (((dat0 (V1 m ρ) c).arrAt_in 0 rfl _).trans ((A_eq0 (V1 m ρ) c 0).trans (V1_adj m ρ c)))

/-- The first region's output array is what its write-backs left. -/
theorem V2_g (c : Dev nD) : V2 m ρ c main_call0_v7 = (dat0 (V1 m ρ) c).arrAt 5 cfg0.N :=
  W2_arr m ρ c 5

/-- The third weight matrix, not an array of the first region, is as the host left it. -/
theorem V2_w3 (c : Dev nD) : (V2 m ρ c main_call0_v3 : S64x40.Idx → EReal) = m ((c : Thread nD τ).loc main_arg6) :=
  (W2_of_ne m ρ c main_call0_v3 (by decide)).trans (V1_w3 m ρ c)

/-- The second bias as a one-row matrix. -/
theorem V2_b2 (c : Dev nD) (n : Fin 64) :
    (V2 m ρ c main_call0_v5 : S1x64.Idx → EReal) (ix2 0 n) = m ((c : Thread nD τ).loc main_arg5) (ix1 n) :=
  (congrFun (W2_of_ne m ρ c main_call0_v5 (by decide)) (ix2 0 n)).trans (V1_b2 m ρ c n)

/-- The third bias as a one-row matrix. -/
theorem V2_b3 (c : Dev nD) (q : Fin 40) :
    (V2 m ρ c main_call0_v6 : S1x40.Idx → EReal) (ix2 0 q) = m ((c : Thread nD τ).loc main_arg7) (ix1 q) :=
  (congrFun (W2_of_ne m ρ c main_call0_v6 (by decide)) (ix2 0 q)).trans (V1_b3 m ρ c q)

end Cert.KernelIdeal.HostSide

end
-- ==== Proof.Spec.lean ====
/-
  The mathematics both programs compute, entry by entry on the extended reals: a two-layer graph convolution over a
  dense adjacency matrix `A` (10000 × 10000), features `X` (10000 × 128), weights `W1` (128 × 128), `W2` (128 × 64),
  `W3` (64 × 40) and biases `b1`, `b2`, `b3`, followed by a row-wise log-softmax over the 40 classes:

    G    = relu (P + b1) · W2              where P is the product of A, X and W1,
    Z    = relu (A · G + b2) · W3 + b3,
    out  = Z − rowmax Z − log (Σ exp (Z − rowmax Z)).

  The one place where the two programs differ is the association of the triple product P: the kernel forms
  (A · X) · W1 (`axw`), the reference A · (X · W1) (`a_xw`). On the extended reals a product does not distribute over a
  sum at the infinities, so the two agree only where the entries are real numbers: `axw_eq`, from which `gK_eq_gR`.
  Everything after P is one function of P (`gOf`, `head`), stated once and shared.
  The zero of the relu and the −∞ the row maximum starts from stay the bit patterns both programs print.
-/
import Idealize.ShloMosaic.PureOps.Ideal
import Idealize.ShloMosaic.PureOps.Ideal.Laws
import Idealize.ShloMosaic.Lib.ValueIdx

noncomputable section

open scoped BigOperators

namespace Cert.Gcn

open Idealize.ShloMosaic Idealize.ShloMosaic.ValueIdx

/-- A matrix of extended reals indexed by a rank-2 shape's indices. -/
abbrev Arr2 (a b : Nat) := (⟨2, ![a, b]⟩ : Shape).Idx → EReal
/-- A vector of extended reals indexed by a rank-1 shape's indices. -/
abbrev Arr1 (a : Nat) := (⟨1, ![a]⟩ : Shape).Idx → EReal

/-- The f32 pattern of zero (the relu's threshold). -/
abbrev zeroW : EReal := Ideal.ofBits .f32 0x00000000#32
/-- The f32 pattern of −∞ (where a row's running maximum starts). -/
abbrev ninfW : EReal := Ideal.ofBits .f32 0xFF800000#32

/-- The triple product at (r, k), the adjacency applied first: ((A · X) · W1)(r, k). -/
def axw (A : Arr2 10000 10000) (X : Arr2 10000 128) (W1 : Arr2 128 128) (r : Fin 10000) (k : Fin 128) : EReal :=
  ∑ l : Fin 128, (∑ j : Fin 10000, A (ix2 r j) * X (ix2 j l)) * W1 (ix2 l k)

/-- The triple product at (r, k), the features transformed first: (A · (X · W1))(r, k). -/
def a_xw (A : Arr2 10000 10000) (X : Arr2 10000 128) (W1 : Arr2 128 128) (r : Fin 10000) (k : Fin 128) : EReal :=
  ∑ j : Fin 10000, A (ix2 r j) * (∑ l : Fin 128, X (ix2 j l) * W1 (ix2 l k))

/-- The second layer's input from the first layer's product `P`: relu (P + b1) · W2. -/
def gOf (P : Fin 10000 → Fin 128 → EReal) (b1 : Arr1 128) (W2 : Arr2 128 64) : Arr2 10000 64 :=
  fun i => ∑ k : Fin 128, max (P (i 0) k + b1 (ix1 k)) zeroW * W2 (ix2 k (i 1))

/-- The second layer's input as the kernel forms it. -/
def gK (A : Arr2 10000 10000) (X : Arr2 10000 128) (W1 : Arr2 128 128) (b1 : Arr1 128) (W2 : Arr2 128 64) : Arr2 10000 64 :=
  gOf (axw A X W1) b1 W2

/-- The second layer's input as the reference forms it. -/
def gR (A : Arr2 10000 10000) (X : Arr2 10000 128) (W1 : Arr2 128 128) (b1 : Arr1 128) (W2 : Arr2 128 64) : Arr2 10000 64 :=
  gOf (a_xw A X W1) b1 W2

/-- Row `r`'s logits from the second layer's input `G`: (relu (A · G + b2) · W3 + b3)(r, q). -/
def logit (A : Arr2 10000 10000) (G : Arr2 10000 64) (b2 : Arr1 64) (W3 : Arr2 64 40) (b3 : Arr1 40)
    (r : Fin 10000) (q : Fin 40) : EReal :=
  (∑ n : Fin 64, max ((∑ j : Fin 10000, A (ix2 r j) * G (ix2 j n)) + b2 (ix1 n)) zeroW * W3 (ix2 n q)) + b3 (ix1 q)

/-- A row's maximum, folded from −∞. -/
def rowMax (z : Fin 40 → EReal) : EReal := (Finset.univ : Finset (Fin 40)).fold max ninfW z

/-- The log-softmax of one row: the entries shifted by the row's maximum, less the logarithm of the sum of their exponentials. -/
def lsm (z : Fin 40 → EReal) (q : Fin 40) : EReal :=
  (z q - rowMax z) - Ideal.log (∑ p : Fin 40, Ideal.exp (z p - rowMax z))

/-- The whole result from the second layer's input. -/
def head (A : Arr2 10000 10000) (G : Arr2 10000 64) (b2 : Arr1 64) (W3 : Arr2 64 40) (b3 : Arr1 40) : Arr2 10000 40 :=
  fun i => lsm (logit A G b2 W3 b3 (i 0)) (i 1)

end Cert.Gcn

end
-- ==== Proof.Pass1.lean ====
/-
  The first pass's body read at one entry. At a grid point the body holds a 400-row block `a` of the adjacency matrix
  and the whole feature and weight matrices; the entry (p, n) of what it stores is

    Σ_k relu( Σ_l (Σ_j a(p, j) · x(j, l)) · w1(l, k) + b1(0, k) ) · w2(k, n),

  three matrix products into zero accumulators, each a sum over its one contracted coordinate; the changes of float
  format between them are the identity on the extended reals, and the bias is a one-row matrix broadcast down the rows.
-/
import proofs.«134880_g22385369546847_retrytranche2_1003_2_alg».proof.Proof.Gen.KernelIdeal.Skeleton
import proofs.«134880_g22385369546847_retrytranche2_1003_2_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Pass

open Cert.KernelIdeal Cert.KernelIdeal.Gen Cert.Gcn
open Idealize.ShloMosaic Idealize.ShloMosaic.ValueIdx Idealize.SL.Sem

/-- Operand indices of the 400 × 10000 by 10000 × 128 product: the left operand's row is the result's row, the right operand's column the result's column. -/
theorem mm_adj_x_l0 (i : S400x128.Idx) (q : dot_S400x10000_S10000x128_S400x128_1_0_0_1_n_n.contr.Idx) : (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem mm_adj_x_r1 (i : S400x128.Idx) (q : dot_S400x10000_S10000x128_S400x128_1_0_0_1_n_n.contr.Idx) : (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The matrix product of a 400 × 10000 block and a 10000 × 128 matrix into a zero accumulator, read at (p, q): the sum over the
    one contracted coordinate. -/
theorem mm_adj_x (l : FVec Ideal S400x10000 .bf16) (r : FVec Ideal S10000x128 .bf16) (p : Fin 400) (q : Fin 128) :
    matmul dot_S400x10000_S10000x128_S400x128_1_0_0_1_n_n none l r (constant S400x128 .f32 0x00000000#32) (ix2 p q)
      = ∑ k : Fin 10000, l (ix2 p k) * r (ix2 k q) := by
  simp only [matmul]
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k := funext fun a => Fin.ext (by
    match a with
    | ⟨0, _⟩ => exact mm_adj_x_l0 _ _
    | ⟨1, _⟩ => exact (dot_S400x10000_S10000x128_S400x128_1_0_0_1_n_n.lhsIdx_val_of_single rfl _ _).trans hk)
  have er : dot_S400x10000_S10000x128_S400x128_1_0_0_1_n_n.rhsIdx (ix2 p q) ((contrEquiv1 dot_S400x10000_S10000x128_S400x128_1_0_0_1_n_n 10000 rfl rfl).symm k) = ix2 k q := funext fun a => Fin.ext (by
    match a with
    | ⟨0, _⟩ => exact (dot_S400x10000_S10000x128_S400x128_1_0_0_1_n_n.rhsIdx_val_of_single rfl _ _).trans hk
    | ⟨1, _⟩ => exact mm_adj_x_r1 _ _)
  rw [el, er]

/-- Operand indices of the 400 × 128 by 128 × 128 product: the left operand's row is the result's row, the right operand's column the result's column. -/
theorem mm_w1_l0 (i : S400x128.Idx) (q : dot_S400x128_S128x128_S400x128_1_0_0_1_n_n.contr.Idx) : (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem mm_w1_r1 (i : S400x128.Idx) (q : dot_S400x128_S128x128_S400x128_1_0_0_1_n_n.contr.Idx) : (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- The matrix product of a 400 × 128 block and a 128 × 128 matrix into a zero accumulator, read at (p, q): the sum over the
    one contracted coordinate. -/
theorem mm_w1 (l : FVec Ideal S400x128 .bf16) (r : FVec Ideal S128x128 .bf16) (p : Fin 400) (q : Fin 128) :
    matmul dot_S400x128_S128x128_S400x128_1_0_0_1_n_n none l r (constant S400x128 .f32 0x00000000#32) (ix2 p q)
      = ∑ k : Fin 128, l (ix2 p k) * r (ix2 k q) := by
  simp only [matmul]
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p q) ((contrEquiv1 dot_S400x128_S128x128_S400x128_1_0_0_1_n_n 128 rfl rfl).symm k) = ix2 p k := funext fun a => Fin.ext (by
    match a with
    | ⟨0, _⟩ => exact mm_w1_l0 _ _
    | ⟨1, _⟩ => exact (dot_S400x128_S128x128_S400x128_1_0_0_1_n_n.lhsIdx_val_of_single rfl _ _).trans hk)
  have er : dot_S400x128_S128x128_S400x128_1_0_0_1_n_n.rhsIdx (ix2 p q) ((contrEquiv1 dot_S400x128_S128x128_S400x128_1_0_0_1_n_n 128 rfl rfl).symm k) = ix2 k q := funext fun a => Fin.ext (by
    match a with
    | ⟨0, _⟩ => exact (dot_S400x128_S128x128_S400x128_1_0_0_1_n_n.rhsIdx_val_of_single rfl _ _).trans hk
    | ⟨1, _⟩ => exact mm_w1_r1 _ _)
  rw [el, er]

/-- Operand indices of the 400 × 128 by 128 × 64 product: the left operand's row is the result's row, the right operand's column the result's column. -/
theorem mm_w2_l0 (i : S400x64.Idx) (q : dot_S400x128_S128x64_S400x64_1_0_0_1_n_n.contr.Idx) : (dot_S400x128_S128x64_S400x64_1_0_0_1_n_n.lhsIdx i q 0).val = (i 0).val := by
  unfold DotDims.lhsIdx
  rw [dif_neg (show ¬(0 : Fin S400x128.rank) ∈ dot_S400x128_S128x64_S400x64_1_0_0_1_n_n.lhsBatch by decide), dif_pos (show (0 : Fin S400x128.rank) ∈ dot_S400x128_S128x64_S400x64_1_0_0_1_n_n.lhsNonContracting by decide)]
  rfl
theorem mm_w2_r1 (i : S400x64.Idx) (q : dot_S400x128_S128x64_S400x64_1_0_0_1_n_n.contr.Idx) : (dot_S400x128_S128x64_S400x64_1_0_0_1_n_n.rhsIdx i q 1).val = (i 1).val := by
  unfold DotDims.rhsIdx
  rw [dif_neg (show ¬(1 : Fin S128x64.rank) ∈ dot_S400x128_S128x64_S400x64_1_0_0_1_n_n.rhsBatch by decide), dif_pos (show (1 : Fin S128x64.rank) ∈ dot_S400x128_S128x64_S400x64_1_0_0_1_n_n.rhsNonContracting by decide)]
  rfl

/-- The matrix product of a 400 × 128 block and a 128 × 64 matrix into a zero accumulator, read at (p, q): the sum over the
    one contracted coordinate. -/
theorem mm_w2 (l : FVec Ideal S400x128 .bf16) (r : FVec Ideal S128x64 .bf16) (p : Fin 400) (q : Fin 64) :
    matmul dot_S400x128_S128x64_S400x64_1_0_0_1_n_n none l r (constant S400x64 .f32 0x00000000#32) (ix2 p q)
      = ∑ k : Fin 128, l (ix2 p k) * r (ix2 k q) := by
  simp only [matmul]
  rw [Ideal.matmul_constant_zero_apply, ← Equiv.sum_comp (contrEquiv1 dot_S400x128_S128x64_S400x64_1_0_0_1_n_n 128 rfl rfl).symm]
  refine Finset.sum_congr rfl fun k _ => ?_
  have hk := contrEquiv1_symm_val dot_S400x128_S128x64_S400x64_1_0_0_1_n_n 128 rfl rfl k
  have el : dot_S400x128_S128x64_S400x64_1_0_0_1_n_n.lhsIdx (ix2 p q) ((contrEquiv1 dot_S400x128_S128x64_S400x64_1_0_0_1_n_n 128 rfl rfl).symm k) = ix2 p k := funext fun a => Fin.ext (by
    match a with
    | ⟨0, _⟩ => exact mm_w2_l0 _ _
    | ⟨1, _⟩ => exact (dot_S400x128_S128x64_S400x64_1_0_0_1_n_n.lhsIdx_val_of_single rfl _ _).trans hk)
  have er : dot_S400x128_S128x64_S400x64_1_0_0_1_n_n.rhsIdx (ix2 p q) ((contrEquiv1 dot_S400x128_S128x64_S400x64_1_0_0_1_n_n 128 rfl rfl).symm k) = ix2 k q := funext fun a => Fin.ext (by
    match a with
    | ⟨0, _⟩ => exact (dot_S400x128_S128x64_S400x64_1_0_0_1_n_n.rhsIdx_val_of_single rfl _ _).trans hk
    | ⟨1, _⟩ => exact mm_w2_r1 _ _)
  rw [el, er]

/-- Operand indices of the 400 × 10000 by 10000 × 64 product: the left operand's row is the result's row, the right operand's column the result's column. -/
theorem mm_adj_g_l0 (i : S400x64.Idx) (q : dot_S400x10000_S10000x64_S400x64_1_0_0_1_n_n.contr.Idx) : (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem mm_adj_g_r1 (i : S400x64.Idx) (q : dot_S400x10000_S10000x64_S400x64_1_0_0_1_n_n.contr.Idx) : (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl

/-- The matrix product of a 400 × 10000 block and a 10000 × 64 matrix into a zero accumulator, read at (p, q): the sum over the
    one contracted coordinate. -/
theorem mm_adj_g (l : FVec Ideal S400x10000 .bf16) (r : FVec Ideal S10000x64 .bf16) (p : Fin 400) (q : Fin 64) :
    matmul dot_S400x10000_S10000x64_S400x64_1_0_0_1_n_n none l r (constant S400x64 .f32 0x00000000#32) (ix2 p q)
      = ∑ k : Fin 10000, l (ix2 p k) * r (ix2 k q) := by
  simp only [matmul]
  rw [Ideal.matmul_constant_zero_apply, ← Equiv.sum_comp (contrEquiv1 dot_S400x10000_S10000x64_S400x64_1_0_0_1_n_n 10000 rfl rfl).symm]
  refine Finset.sum_congr rfl fun k _ => ?_
  have hk := contrEquiv1_symm_val dot_S400x10000_S10000x64_S400x64_1_0_0_1_n_n 10000 rfl rfl k
  have el : dot_S400x10000_S10000x64_S400x64_1_0_0_1_n_n.lhsIdx (ix2 p q) ((contrEquiv1 dot_S400x10000_S10000x64_S400x64_1_0_0_1_n_n 10000 rfl rfl).symm k) = ix2 p k := funext fun a => Fin.ext (by
    match a with
    | ⟨0, _⟩ => exact mm_adj_g_l0 _ _
    | ⟨1, _⟩ => exact (dot_S400x10000_S10000x64_S400x64_1_0_0_1_n_n.lhsIdx_val_of_single rfl _ _).trans hk)
  have er : dot_S400x10000_S10000x64_S400x64_1_0_0_1_n_n.rhsIdx (ix2 p q) ((contrEquiv1 dot_S400x10000_S10000x64_S400x64_1_0_0_1_n_n 10000 rfl rfl).symm k) = ix2 k q := funext fun a => Fin.ext (by
    match a with
    | ⟨0, _⟩ => exact (dot_S400x10000_S10000x64_S400x64_1_0_0_1_n_n.rhsIdx_val_of_single rfl _ _).trans hk
    | ⟨1, _⟩ => exact mm_adj_g_r1 _ _)
  rw [el, er]

/-- Operand indices of the 400 × 64 by 64 × 40 product: the left operand's row is the result's row, the right operand's column the result's column. -/
theorem mm_w3_l0 (i : S400x40.Idx) (q : dot_S400x64_S64x40_S400x40_1_0_0_1_n_n.contr.Idx) : (dot_S400x64_S64x40_S400x40_1_0_0_1_n_n.lhsIdx i q 0).val = (i 0).val := by
  unfold DotDims.lhsIdx
  rw [dif_neg (show ¬(0 : Fin S400x64.rank) ∈ dot_S400x64_S64x40_S400x40_1_0_0_1_n_n.lhsBatch by decide), dif_pos (show (0 : Fin S400x64.rank) ∈ dot_S400x64_S64x40_S400x40_1_0_0_1_n_n.lhsNonContracting by decide)]
  rfl
theorem mm_w3_r1 (i : S400x40.Idx) (q : dot_S400x64_S64x40_S400x40_1_0_0_1_n_n.contr.Idx) : (dot_S400x64_S64x40_S400x40_1_0_0_1_n_n.rhsIdx i q 1).val = (i 1).val := by
  unfold DotDims.rhsIdx
  rw [dif_neg (show ¬(1 : Fin S64x40.rank) ∈ dot_S400x64_S64x40_S400x40_1_0_0_1_n_n.rhsBatch by decide), dif_pos (show (1 : Fin S64x40.rank) ∈ dot_S400x64_S64x40_S400x40_1_0_0_1_n_n.rhsNonContracting by decide)]
  rfl

/-- The matrix product of a 400 × 64 block and a 64 × 40 matrix into a zero accumulator, read at (p, q): the sum over the
    one contracted coordinate. -/
theorem mm_w3 (l : FVec Ideal S400x64 .bf16) (r : FVec Ideal S64x40 .bf16) (p : Fin 400) (q : Fin 40) :
    matmul dot_S400x64_S64x40_S400x40_1_0_0_1_n_n none l r (constant S400x40 .f32 0x00000000#32) (ix2 p q)
      = ∑ k : Fin 64, l (ix2 p k) * r (ix2 k q) := by
  simp only [matmul]
  rw [Ideal.matmul_constant_zero_apply, ← Equiv.sum_comp (contrEquiv1 dot_S400x64_S64x40_S400x40_1_0_0_1_n_n 64 rfl rfl).symm]
  refine Finset.sum_congr rfl fun k _ => ?_
  have hk := contrEquiv1_symm_val dot_S400x64_S64x40_S400x40_1_0_0_1_n_n 64 rfl rfl k
  have el : dot_S400x64_S64x40_S400x40_1_0_0_1_n_n.lhsIdx (ix2 p q) ((contrEquiv1 dot_S400x64_S64x40_S400x40_1_0_0_1_n_n 64 rfl rfl).symm k) = ix2 p k := funext fun a => Fin.ext (by
    match a with
    | ⟨0, _⟩ => exact mm_w3_l0 _ _
    | ⟨1, _⟩ => exact (dot_S400x64_S64x40_S400x40_1_0_0_1_n_n.lhsIdx_val_of_single rfl _ _).trans hk)
  have er : dot_S400x64_S64x40_S400x40_1_0_0_1_n_n.rhsIdx (ix2 p q) ((contrEquiv1 dot_S400x64_S64x40_S400x40_1_0_0_1_n_n 64 rfl rfl).symm k) = ix2 k q := funext fun a => Fin.ext (by
    match a with
    | ⟨0, _⟩ => exact (dot_S400x64_S64x40_S400x40_1_0_0_1_n_n.rhsIdx_val_of_single rfl _ _).trans hk
    | ⟨1, _⟩ => exact mm_w3_r1 _ _)
  rw [el, er]

/-- A one-row matrix broadcast down 400 rows, read at (p, k): the row's entry k. -/
theorem bcast_row128 (v : FVec Ideal S1x128 .f32) (p : Fin 400) (k : Fin 128) :
    broadcastTo S400x128 v broadcasts_S1x128_S400x128 (ix2 p k) = v (ix2 0 k) :=
  broadcastTo_apply v _ (ix2 p k) (ix2 0 k) (fun a => by
    match a with
    | ⟨0, _⟩ => show 0 = if (1 : Nat) = 1 then 0 else _; rw [if_pos rfl]
    | ⟨1, _⟩ => show k.val = if (128 : Nat) = 1 then 0 else k.val; rw [if_neg (by decide)])

/-- A one-row matrix broadcast down 400 rows, read at (p, k): the row's entry k. -/
theorem bcast_row64 (v : FVec Ideal S1x64 .f32) (p : Fin 400) (k : Fin 64) :
    broadcastTo S400x64 v broadcasts_S1x64_S400x64 (ix2 p k) = v (ix2 0 k) :=
  broadcastTo_apply v _ (ix2 p k) (ix2 0 k) (fun a => by
    match a with
    | ⟨0, _⟩ => show 0 = if (1 : Nat) = 1 then 0 else _; rw [if_pos rfl]
    | ⟨1, _⟩ => show k.val = if (64 : Nat) = 1 then 0 else k.val; rw [if_neg (by decide)])

/-- A one-row matrix broadcast down 400 rows, read at (p, k): the row's entry k. -/
theorem bcast_row40 (v : FVec Ideal S1x40 .f32) (p : Fin 400) (k : Fin 40) :
    broadcastTo S400x40 v broadcasts_S1x40_S400x40 (ix2 p k) = v (ix2 0 k) :=
  broadcastTo_apply v _ (ix2 p k) (ix2 0 k) (fun a => by
    match a with
    | ⟨0, _⟩ => show 0 = if (1 : Nat) = 1 then 0 else _; rw [if_pos rfl]
    | ⟨1, _⟩ => show k.val = if (40 : Nat) = 1 then 0 else k.val; rw [if_neg (by decide)])

/-- The first pass's stored block at (p, n), as sums over the contracted coordinates. -/
theorem pay1_apply (x0 : Vec Ideal S400x10000 .f32) (x1 : Vec Ideal S10000x128 .bf16) (x2 : Vec Ideal S128x128 .bf16)
    (x3 : Vec Ideal S1x128 .f32) (x4 : Vec Ideal S128x64 .bf16) (p : Fin 400) (n : Fin 64) :
    k0_pay1 (F := Ideal) x0 x1 x2 x3 x4 (ix2 p n)
      = ∑ k : Fin 128, max ((∑ l : Fin 128, (∑ j : Fin 10000, x0 (ix2 p j) * x1 (ix2 j l)) * x2 (ix2 l k)) + x3 (ix2 0 k)) zeroW
          * x4 (ix2 k n) := by
  unfold k0_pay1
  simp only [truncf_apply, maximumf_apply, addf_apply, broadcast_apply, shapeCast_self, mm_adj_x, mm_w1, mm_w2, bcast_row128]
  rfl

end Cert.KernelIdeal.Pass

end
-- ==== Proof.Pass1Array.lean ====
/-
  From the first pass's blocks to its whole output array. The grid has 25 points; at point t the adjacency window holds
  rows 400·t … 400·t + 399 of the adjacency matrix (all 10000 columns), the other four input windows hold their whole
  arrays at every point, and the output window's block is rows 400·t … 400·t + 399 of the 10000 × 64 output. So what
  point t writes back is block t of ONE function of the arrays as the region finds them (`g1`), the 25 blocks tile the
  rows, and the array ends holding that function.
-/
import proofs.«134880_g22385369546847_retrytranche2_1003_2_alg».proof.Proof.Gen.KernelIdeal.Frame
import proofs.«134880_g22385369546847_retrytranche2_1003_2_alg».proof.Proof.Pass1
import Idealize.ShloMosaic.Lib.ValueIdx
import Idealize.ShloMosaic.Lib.Pipeline.Value

set_option maxRecDepth 16384

noncomputable section

open scoped BigOperators

namespace Cert.KernelIdeal.Pass

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The first pass's grid has 25 points. -/
theorem t0_lt (t : Fin cfg0.N) : t.val < 25 := lt_of_lt_of_eq t.isLt N_0

/-- The printed index maps of the first pass, decided over the grid: the adjacency window and the output window move
    down the rows with the point, every other window stays at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `400·t + p` of a 10000-row array. -/
abbrev row (t p : Nat) (ht : t < 25) (hp : p < 400) : Fin 10000 := ⟨t * 400 + p, by omega⟩

/-- The adjacency window's block at point t: rows 400·t … of the adjacency matrix. -/
theorem blk0_adj (c : Dev nD) (t : Fin cfg0.N) (p : Fin 400) (j : Fin 10000) :
    iblk0 V c 0 t (ix2 p j) = V c main_arg1 (ix2 (row t.val p.val (t0_lt t) p.isLt) j) := by
  unfold iblk0
  show V c main_arg1 (((cfg0.win 0).blk t).view.emb (ix2 p j)) = _
  refine congrArg (V c main_arg1) (funext fun d => Fin.ext ?_)
  obtain ⟨e00, e01, e10, e11, e20, e21, e30, e31, e40, e41, e50, e51⟩ := idx0 t
  match d with
  | ⟨0, _⟩ => show win0_0.index t (0 : Fin 2) * 400 + 1 * p.val = t.val * 400 + p.val; rw [e00]; omega
  | ⟨1, _⟩ => show win0_0.index t (1 : Fin 2) * 10000 + 1 * j.val = j.val; rw [e01]; omega

theorem blk0_x (c : Dev nD) (t : Fin cfg0.N) (a : Fin 10000) (b : Fin 128) :
    iblk0 V c 1 t (ix2 a b) = V c main_call0_v0 (ix2 a b) := by
  unfold iblk0
  show V c main_call0_v0 (((cfg0.win 1).blk t).view.emb (ix2 a b)) = _
  refine congrArg (V c main_call0_v0) (funext fun d => Fin.ext ?_)
  obtain ⟨e00, e01, e10, e11, e20, e21, e30, e31, e40, e41, e50, e51⟩ := idx0 t
  match d with
  | ⟨0, _⟩ => show win0_1.index t (0 : Fin 2) * 10000 + 1 * a.val = a.val; rw [e10]; omega
  | ⟨1, _⟩ => show win0_1.index t (1 : Fin 2) * 128 + 1 * b.val = b.val; rw [e11]; omega

theorem blk0_w1 (c : Dev nD) (t : Fin cfg0.N) (a : Fin 128) (b : Fin 128) :
    iblk0 V c 2 t (ix2 a b) = V c main_call0_v1 (ix2 a b) := by
  unfold iblk0
  show V c main_call0_v1 (((cfg0.win 2).blk t).view.emb (ix2 a b)) = _
  refine congrArg (V c main_call0_v1) (funext fun d => Fin.ext ?_)
  obtain ⟨e00, e01, e10, e11, e20, e21, e30, e31, e40, e41, e50, e51⟩ := idx0 t
  match d with
  | ⟨0, _⟩ => show win0_2.index t (0 : Fin 2) * 128 + 1 * a.val = a.val; rw [e20]; omega
  | ⟨1, _⟩ => show win0_2.index t (1 : Fin 2) * 128 + 1 * b.val = b.val; rw [e21]; omega

theorem blk0_b1 (c : Dev nD) (t : Fin cfg0.N) (a : Fin 1) (b : Fin 128) :
    iblk0 V c 3 t (ix2 a b) = V c main_call0_v4 (ix2 a b) := by
  unfold iblk0
  show V c main_call0_v4 (((cfg0.win 3).blk t).view.emb (ix2 a b)) = _
  refine congrArg (V c main_call0_v4) (funext fun d => Fin.ext ?_)
  obtain ⟨e00, e01, e10, e11, e20, e21, e30, e31, e40, e41, e50, e51⟩ := idx0 t
  match d with
  | ⟨0, _⟩ => show win0_3.index t (0 : Fin 2) * 1 + 1 * a.val = a.val; rw [e30]; omega
  | ⟨1, _⟩ => show win0_3.index t (1 : Fin 2) * 128 + 1 * b.val = b.val; rw [e31]; omega

theorem blk0_w2 (c : Dev nD) (t : Fin cfg0.N) (a : Fin 128) (b : Fin 64) :
    iblk0 V c 4 t (ix2 a b) = V c main_call0_v2 (ix2 a b) := by
  unfold iblk0
  show V c main_call0_v2 (((cfg0.win 4).blk t).view.emb (ix2 a b)) = _
  refine congrArg (V c main_call0_v2) (funext fun d => Fin.ext ?_)
  obtain ⟨e00, e01, e10, e11, e20, e21, e30, e31, e40, e41, e50, e51⟩ := idx0 t
  match d with
  | ⟨0, _⟩ => show win0_4.index t (0 : Fin 2) * 128 + 1 * a.val = a.val; rw [e40]; omega
  | ⟨1, _⟩ => show win0_4.index t (1 : Fin 2) * 64 + 1 * b.val = b.val; rw [e41]; omega

/-- The first pass's output as one function of five arrays of extended reals: the adjacency matrix, the features, the
    first weights, the first bias as a one-row matrix, the second weights. -/
def g1f (A : S10000x10000.Idx → EReal) (X : S10000x128.Idx → EReal) (W1 : S128x128.Idx → EReal) (B1 : S1x128.Idx → EReal)
    (W2 : S128x64.Idx → EReal) : S10000x64.Idx → EReal := fun i =>
  ∑ k : Fin 128, max ((∑ l : Fin 128, (∑ j : Fin 10000, A (ix2 (i 0) j) * X (ix2 j l)) * W1 (ix2 l k)) + B1 (ix2 0 k)) zeroW
    * W2 (ix2 k (i 1))

/-- What the first pass leaves in its output array: that function of the arrays the region finds. -/
def g1 (c : Dev nD) : S10000x64.Idx → EReal :=
  g1f (V c main_arg1) (V c main_call0_v0) (V c main_call0_v1) (V c main_call0_v4) (V c main_call0_v2)

/-- WHAT POINT t WRITES BACK is block t of `g1`. -/
theorem flushed1 (c : Dev nD) (t : Fin cfg0.N) :
    (dat0 V c).flushed 5 t = ((cfg0.win 5).blk t).view.read (Elt Ideal) (g1 V c) := by
  show (cfg0.win 5).cut (grid0.coords t) ((dat0 V c).after 5 t) = _
  rw [after0_5]
  unfold out0_5
  rw [View.canon_unit_zero hz]
  simp only [View.ld_unit_zero (S := S400x10000) hz, View.ld_unit_zero (S := S10000x128) hz, View.ld_unit_zero (S := S128x128) hz,
    View.ld_unit_zero (S := S1x128) hz, View.ld_unit_zero (S := S128x64) hz]
  obtain ⟨e00, e01, e10, e11, e20, e21, e30, e31, e40, e41, e50, e51⟩ := idx0 t
  funext y
  obtain ⟨p, n, rfl⟩ : ∃ (p : Fin 400) (n : Fin 64), y = ix2 p n := ⟨y 0, y 1, eq_ix2 (n0 := 400) (n1 := 64) y⟩
  refine (pay1_apply (iblk0 V c 0 t) (iblk0 V c 1 t) (iblk0 V c 2 t) (iblk0 V c 3 t) (iblk0 V c 4 t) p n).trans ?_
  simp only [blk0_adj, blk0_x, blk0_w1, blk0_b1, blk0_w2]
  show _ = g1 V c (((cfg0.win 5).blk t).view.emb (ix2 p n))
  have he : ((cfg0.win 5).blk t).view.emb (ix2 p n) = ix2 (row t.val p.val (t0_lt t) p.isLt) n := by
    funext d; apply Fin.ext
    match d with
    | ⟨0, _⟩ => show win0_5.index t (0 : Fin 2) * 400 + 1 * p.val = t.val * 400 + p.val; rw [e50]; omega
    | ⟨1, _⟩ => show win0_5.index t (1 : Fin 2) * 64 + 1 * n.val = n.val; rw [e51]; omega
  rw [he]
  rfl

/-- An index of the output array is in point t's block iff each coordinate is in the block's range on its axis. -/
theorem mem_blk0_5 (t : Fin cfg0.N) (i : S10000x64.Idx) :
    i ∈ ((cfg0.win 5).blk t).view.set ↔ ∀ a : Fin 2, win0_5.index t a * S400x64.size a ≤ (i a).val ∧ (i a).val < win0_5.index t a * S400x64.size a + S400x64.size a := by
  show i ∈ ((View.whole main_call0_v7).slice (win0_5.rect t)).set ↔ _
  rw [View.set_slice_whole, Rect.mem_set_unit]
  exact Iff.rfl

/-- Every row of the output array is in the block of the point `row / 400`. -/
theorem cover1 (i : S10000x64.Idx) : ∃ t : Fin cfg0.N, (cfg0.win 5).flush t = true ∧ i ∈ ((cfg0.win 5).blk t).view.set := by
  have hi0 : (i 0).val < 10000 := (i 0).isLt
  have hi1 : (i 1).val < 64 := (i 1).isLt
  have hN : cfg0.N = 25 := N_0
  let t : Fin cfg0.N := ⟨(i 0).val / 400, by rw [hN]; omega⟩
  obtain ⟨e00, e01, e10, e11, e20, e21, e30, e31, e40, e41, e50, e51⟩ := idx0 t
  refine ⟨t, flush0_5 t, ?_⟩
  rw [mem_blk0_5]
  intro a
  have htv : t.val = (i 0).val / 400 := rfl
  match a with
  | ⟨0, _⟩ => show win0_5.index t (0 : Fin 2) * 400 ≤ (i 0).val ∧ (i 0).val < win0_5.index t (0 : Fin 2) * 400 + 400; rw [e50]; omega
  | ⟨1, _⟩ => show win0_5.index t (1 : Fin 2) * 64 ≤ (i 1).val ∧ (i 1).val < win0_5.index t (1 : Fin 2) * 64 + 64; rw [e51]; omega

/-- THE ARRAY after the first pass: `g1` of the arrays the region found. -/
theorem final1 (c : Dev nD) : (dat0 V c).arrAt 5 cfg0.N = g1 V c :=
  (dat0 V c).arrAt_eq_of_cover 5 (g1 V c) (fun t _ => flushed1 V c t) (cover1)

end Cert.KernelIdeal.Pass

end
-- ==== Proof.Pass2.lean ====
/-
  The second pass's body read at one entry. At a grid point the body holds a 400-row block `a` of the adjacency matrix,
  the whole second-layer input `g` and the last weights and biases. Row p of the logits it forms is

    z(q') = Σ_n relu( Σ_j a(p, j) · g(j, n) + b2(0, n) ) · w3(n, q') + b3(0, q'),

  two matrix products into zero accumulators, and the entry (p, q) of what it stores is the log-softmax of that row at q:

    (z q − M) − log Σ_{p'} exp (z p' − M),      M = the maximum of z over the 40 classes, folded from −∞.

  The row maximum and the row sum are reductions over the second coordinate, each kept as a one-column matrix and
  broadcast back along the row; the changes of float format are the identity on the extended reals.
-/
import proofs.«134880_g22385369546847_retrytranche2_1003_2_alg».proof.Proof.Pass1
import Idealize.ShloMosaic.PureOps.Ideal.Laws
import Idealize.ShloMosaic.Lib.Pipeline.Value

noncomputable section

open scoped BigOperators

namespace Cert.KernelIdeal.Pass

open Cert.KernelIdeal Cert.KernelIdeal.Gen Cert.Gcn
open Idealize.ShloMosaic Idealize.ShloMosaic.ValueIdx Idealize.SL.Sem

/-- The exponential of an array, read at an index. -/
theorem exp_apply {s : Shape} {φ : FTy} (a : FVec Ideal s φ) (i : s.Idx) :
    Idealize.ShloMosaic.exp a i = Ideal.exp (a i) := rfl

/-- The logarithm of an array, read at an index. -/
theorem log_apply {s : Shape} {φ : FTy} (a : FVec Ideal s φ) (i : s.Idx) :
    Idealize.ShloMosaic.log a i = Ideal.log (a i) := rfl

/-- The index the reduction over the second coordinate reads for row p at column k is (p, k). -/
theorem lift_row (p : Fin 400) (k : Fin 40) : reduces_S400x40_S400.lift (ix1 p) k = ix2 p k :=
  funext fun a => Fin.ext (by
    match a with
    | ⟨0, _⟩ => rfl
    | ⟨1, _⟩ => rfl)

/-- A 400 × 40 matrix's maximum along each row, read at row p: the fold of max from −∞ over the row's 40 entries.
    The two side conditions of the reduction (the format admits it; the starting word is the maximum's neutral word) are
    taken as hypotheses in the form the body states them. -/
theorem rowmax_apply (v : FVec Ideal S400x40 .f32) (p : Fin 400) (hφ : FKind.Formats FTy.f32)
    (hacc : (0xFF800000#32 : BitVec FTy.f32.bits) = 0xFF800000#32) :
    multiReduction (F := Ideal) .maximumf [1] S400 v 0xFF800000#32 reduces_S400x40_S400 hφ hacc (ix1 p)
      = (Finset.univ : Finset (Fin 40)).fold max ninfW (fun k => v (ix2 p k)) := by
  refine (Ideal.multiReduction_maximumf_single v _ reduces_S400x40_S400 hφ hacc (ix1 p)).trans ?_
  have hl : (v ∘ reduces_S400x40_S400.lift (ix1 p)) = fun k : Fin 40 => v (ix2 p k) :=
    funext fun k => congrArg v (lift_row p k)
  show (Finset.univ : Finset (Fin 40)).fold max ninfW (v ∘ reduces_S400x40_S400.lift (ix1 p)) = _
  rw [hl]
  rfl

/-- A 400 × 40 matrix's sum along each row, read at row p: the sum of the row's 40 entries (side conditions as above,
    the starting word the sum's neutral word 0). -/
theorem rowsum_apply (v : FVec Ideal S400x40 .f32) (p : Fin 400) (hφ : FKind.Formats FTy.f32)
    (hacc : (0x00000000#32 : BitVec FTy.f32.bits) = 0x00000000#32) :
    multiReduction (F := Ideal) .add [1] S400 v 0x00000000#32 reduces_S400x40_S400 hφ hacc (ix1 p)
      = ∑ k : Fin 40, v (ix2 p k) := by
  refine (Ideal.multiReduction_add_single v _ reduces_S400x40_S400 hφ hacc (ix1 p)).trans ?_
  show ∑ k : Fin 40, v (reduces_S400x40_S400.lift (ix1 p) k) = _
  exact Finset.sum_congr rfl fun k _ => congrArg v (lift_row p k)

/-- The row maximum as a function of the row. -/
theorem rowmax_fun (v : FVec Ideal S400x40 .f32) (hφ : FKind.Formats FTy.f32)
    (hacc : (0xFF800000#32 : BitVec FTy.f32.bits) = 0xFF800000#32) :
    multiReduction (F := Ideal) .maximumf [1] S400 v 0xFF800000#32 reduces_S400x40_S400 hφ hacc
      = fun i : S400.Idx => (Finset.univ : Finset (Fin 40)).fold max ninfW (fun k => v (ix2 (i 0) k)) := by
  funext i
  obtain ⟨a, rfl⟩ : ∃ a : Fin 400, i = ix1 a := ⟨i 0, eq_ix1 i⟩
  exact rowmax_apply v a hφ hacc

/-- The row sum as a function of the row. -/
theorem rowsum_fun (v : FVec Ideal S400x40 .f32) (hφ : FKind.Formats FTy.f32)
    (hacc : (0x00000000#32 : BitVec FTy.f32.bits) = 0x00000000#32) :
    multiReduction (F := Ideal) .add [1] S400 v 0x00000000#32 reduces_S400x40_S400 hφ hacc
      = fun i : S400.Idx => ∑ k : Fin 40, v (ix2 (i 0) k) := by
  funext i
  obtain ⟨a, rfl⟩ : ∃ a : Fin 400, i = ix1 a := ⟨i 0, eq_ix1 i⟩
  exact rowsum_apply v a hφ hacc

/-- A 400-vector kept as a one-column matrix, read at (p, 0): the vector's entry p. -/
theorem col_cast (v : FVec Ideal S400 .f32) (p : Fin 400) :
    shapeCast S400x1 v shapeCasts_S400_S400x1 (ix2 p 0) = v (ix1 p) := by
  refine shapeCast_apply _ _ _ (ix1 p) ?_
  rw [Shape.rowMajor_val_one, Shape.rowMajor_val_two]
  show p.val = p.val * 1 + 0
  omega

/-- A one-column matrix broadcast along 40 columns, read at (p, q): the column's entry p. -/
theorem bcast_col (v : FVec Ideal S400x1 .f32) (p : Fin 400) (q : Fin 40) :
    broadcastTo S400x40 v broadcasts_S400x1_S400x40 (ix2 p q) = v (ix2 p 0) :=
  broadcastTo_apply v _ (ix2 p q) (ix2 p 0) (fun a => by
    match a with
    | ⟨0, _⟩ => show p.val = if (400 : Nat) = 1 then 0 else p.val; rw [if_neg (by decide)]
    | ⟨1, _⟩ => show 0 = if (1 : Nat) = 1 then 0 else _; rw [if_pos rfl])

/-- The second pass's stored block at (p, q): the log-softmax at q of row p's logits. -/
theorem pay2_apply (x0 : Vec Ideal S400x10000 .f32) (x1 : Vec Ideal S10000x64 .bf16) (x2 : Vec Ideal S1x64 .f32)
    (x3 : Vec Ideal S64x40 .bf16) (x4 : Vec Ideal S1x40 .f32) (p : Fin 400) (q : Fin 40) :
    k1_pay1 (F := Ideal) x0 x1 x2 x3 x4 (ix2 p q)
      = lsm (fun q' : Fin 40 => (∑ n : Fin 64, max ((∑ j : Fin 10000, x0 (ix2 p j) * x1 (ix2 j n)) + x2 (ix2 0 n)) zeroW
              * x3 (ix2 n q')) + x4 (ix2 0 q')) q := by
  unfold k1_pay1
  simp only [subf_apply, exp_apply, log_apply, bcast_col, col_cast, truncf_apply,
    maximumf_apply, addf_apply, broadcast_apply, shapeCast_self, mm_adj_g, mm_w3, bcast_row64, bcast_row40]
  rw [rowmax_fun, rowsum_fun]
  simp only [subf_apply, exp_apply, log_apply, bcast_col, col_cast, truncf_apply,
    maximumf_apply, addf_apply, broadcast_apply, shapeCast_self, mm_adj_g, mm_w3, bcast_row64, bcast_row40]
  rfl

end Cert.KernelIdeal.Pass

end
-- ==== Proof.Pass2Array.lean ====
/-
  From the second pass's blocks to the result array. As in the first pass the grid has 25 points; at point t the
  adjacency window holds rows 400·t … 400·t + 399, the other four input windows (the first pass's output, the second
  bias as a one-row matrix, the classifier's weights, its bias as a one-row matrix) hold their whole arrays, and the
  output block is rows 400·t … 400·t + 399 of the 10000 × 40 result. Each result row is the log-softmax of that row's
  logits, so what point t writes back is block t of ONE function of the arrays the region finds (`g2`); the 25 blocks
  tile the rows, and the array ends holding that function.
-/
import proofs.«134880_g22385369546847_retrytranche2_1003_2_alg».proof.Proof.Gen.KernelIdeal.Frame
import proofs.«134880_g22385369546847_retrytranche2_1003_2_alg».proof.Proof.Pass1Array
import proofs.«134880_g22385369546847_retrytranche2_1003_2_alg».proof.Proof.Pass2
import Idealize.ShloMosaic.Lib.ValueIdx
import Idealize.ShloMosaic.Lib.Pipeline.Value

set_option maxRecDepth 16384

noncomputable section

open scoped BigOperators

namespace Cert.KernelIdeal.Pass

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The second pass's grid has 25 points. -/
theorem t1_lt (t : Fin cfg1.N) : t.val < 25 := lt_of_lt_of_eq t.isLt N_1

/-- The printed index maps of the second pass, decided over the grid: the adjacency window and the output window move
    down the rows with the point, every other window stays at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The adjacency window's block at point t: rows 400·t … of the adjacency matrix. -/
theorem blk1_adj (c : Dev nD) (t : Fin cfg1.N) (p : Fin 400) (j : Fin 10000) :
    iblk1 V c 0 t (ix2 p j) = V c main_arg1 (ix2 (row t.val p.val (t1_lt t) p.isLt) j) := by
  unfold iblk1
  show V c main_arg1 (((cfg1.win 0).blk t).view.emb (ix2 p j)) = _
  refine congrArg (V c main_arg1) (funext fun d => Fin.ext ?_)
  obtain ⟨e00, e01, e10, e11, e20, e21, e30, e31, e40, e41, e50, e51⟩ := idx1 t
  match d with
  | ⟨0, _⟩ => show win1_0.index t (0 : Fin 2) * 400 + 1 * p.val = t.val * 400 + p.val; rw [e00]; omega
  | ⟨1, _⟩ => show win1_0.index t (1 : Fin 2) * 10000 + 1 * j.val = j.val; rw [e01]; omega

theorem blk1_g (c : Dev nD) (t : Fin cfg1.N) (a : Fin 10000) (b : Fin 64) :
    iblk1 V c 1 t (ix2 a b) = V c main_call0_v7 (ix2 a b) := by
  unfold iblk1
  show V c main_call0_v7 (((cfg1.win 1).blk t).view.emb (ix2 a b)) = _
  refine congrArg (V c main_call0_v7) (funext fun d => Fin.ext ?_)
  obtain ⟨e00, e01, e10, e11, e20, e21, e30, e31, e40, e41, e50, e51⟩ := idx1 t
  match d with
  | ⟨0, _⟩ => show win1_1.index t (0 : Fin 2) * 10000 + 1 * a.val = a.val; rw [e10]; omega
  | ⟨1, _⟩ => show win1_1.index t (1 : Fin 2) * 64 + 1 * b.val = b.val; rw [e11]; omega

theorem blk1_b2 (c : Dev nD) (t : Fin cfg1.N) (a : Fin 1) (b : Fin 64) :
    iblk1 V c 2 t (ix2 a b) = V c main_call0_v5 (ix2 a b) := by
  unfold iblk1
  show V c main_call0_v5 (((cfg1.win 2).blk t).view.emb (ix2 a b)) = _
  refine congrArg (V c main_call0_v5) (funext fun d => Fin.ext ?_)
  obtain ⟨e00, e01, e10, e11, e20, e21, e30, e31, e40, e41, e50, e51⟩ := idx1 t
  match d with
  | ⟨0, _⟩ => show win1_2.index t (0 : Fin 2) * 1 + 1 * a.val = a.val; rw [e20]; omega
  | ⟨1, _⟩ => show win1_2.index t (1 : Fin 2) * 64 + 1 * b.val = b.val; rw [e21]; omega

theorem blk1_w3 (c : Dev nD) (t : Fin cfg1.N) (a : Fin 64) (b : Fin 40) :
    iblk1 V c 3 t (ix2 a b) = V c main_call0_v3 (ix2 a b) := by
  unfold iblk1
  show V c main_call0_v3 (((cfg1.win 3).blk t).view.emb (ix2 a b)) = _
  refine congrArg (V c main_call0_v3) (funext fun d => Fin.ext ?_)
  obtain ⟨e00, e01, e10, e11, e20, e21, e30, e31, e40, e41, e50, e51⟩ := idx1 t
  match d with
  | ⟨0, _⟩ => show win1_3.index t (0 : Fin 2) * 64 + 1 * a.val = a.val; rw [e30]; omega
  | ⟨1, _⟩ => show win1_3.index t (1 : Fin 2) * 40 + 1 * b.val = b.val; rw [e31]; omega

theorem blk1_b3 (c : Dev nD) (t : Fin cfg1.N) (a : Fin 1) (b : Fin 40) :
    iblk1 V c 4 t (ix2 a b) = V c main_call0_v6 (ix2 a b) := by
  unfold iblk1
  show V c main_call0_v6 (((cfg1.win 4).blk t).view.emb (ix2 a b)) = _
  refine congrArg (V c main_call0_v6) (funext fun d => Fin.ext ?_)
  obtain ⟨e00, e01, e10, e11, e20, e21, e30, e31, e40, e41, e50, e51⟩ := idx1 t
  match d with
  | ⟨0, _⟩ => show win1_4.index t (0 : Fin 2) * 1 + 1 * a.val = a.val; rw [e40]; omega
  | ⟨1, _⟩ => show win1_4.index t (1 : Fin 2) * 40 + 1 * b.val = b.val; rw [e41]; omega

/-- The second pass's output as one function of five arrays of extended reals: the adjacency matrix, the first pass's
    output, the second bias as a one-row matrix, the classifier's weights, its bias as a one-row matrix. -/
def g2f (A : S10000x10000.Idx → EReal) (G : S10000x64.Idx → EReal) (B2 : S1x64.Idx → EReal) (W3 : S64x40.Idx → EReal)
    (B3 : S1x40.Idx → EReal) : S10000x40.Idx → EReal := fun i =>
  lsm (fun q' : Fin 40 => (∑ n : Fin 64, max ((∑ j : Fin 10000, A (ix2 (i 0) j) * G (ix2 j n)) + B2 (ix2 0 n)) zeroW * W3 (ix2 n q'))
    + B3 (ix2 0 q')) (i 1)

/-- What the second pass leaves in the result array: that function of the arrays the region finds. -/
def g2 (c : Dev nD) : S10000x40.Idx → EReal :=
  g2f (V c main_arg1) (V c main_call0_v7) (V c main_call0_v5) (V c main_call0_v3) (V c main_call0_v6)

/-- WHAT POINT t WRITES BACK is block t of `g2`. -/
theorem flushed2 (c : Dev nD) (t : Fin cfg1.N) :
    (dat1 V c).flushed 5 t = ((cfg1.win 5).blk t).view.read (Elt Ideal) (g2 V c) := by
  show (cfg1.win 5).cut (grid1.coords t) ((dat1 V c).after 5 t) = _
  rw [after1_5]
  unfold out1_5
  rw [View.canon_unit_zero hz]
  simp only [View.ld_unit_zero (S := S400x10000) hz, View.ld_unit_zero (S := S10000x64) hz, View.ld_unit_zero (S := S1x64) hz,
    View.ld_unit_zero (S := S64x40) hz, View.ld_unit_zero (S := S1x40) hz]
  obtain ⟨e00, e01, e10, e11, e20, e21, e30, e31, e40, e41, e50, e51⟩ := idx1 t
  funext y
  obtain ⟨p, q, rfl⟩ : ∃ (p : Fin 400) (q : Fin 40), y = ix2 p q := ⟨y 0, y 1, eq_ix2 (n0 := 400) (n1 := 40) y⟩
  refine (pay2_apply (iblk1 V c 0 t) (iblk1 V c 1 t) (iblk1 V c 2 t) (iblk1 V c 3 t) (iblk1 V c 4 t) p q).trans ?_
  simp only [blk1_adj, blk1_g, blk1_b2, blk1_w3, blk1_b3]
  show _ = g2 V c (((cfg1.win 5).blk t).view.emb (ix2 p q))
  have he : ((cfg1.win 5).blk t).view.emb (ix2 p q) = ix2 (row t.val p.val (t1_lt t) p.isLt) q := by
    funext d; apply Fin.ext
    match d with
    | ⟨0, _⟩ => show win1_5.index t (0 : Fin 2) * 400 + 1 * p.val = t.val * 400 + p.val; rw [e50]; omega
    | ⟨1, _⟩ => show win1_5.index t (1 : Fin 2) * 40 + 1 * q.val = q.val; rw [e51]; omega
  rw [he]
  rfl

/-- An index of the result array is in point t's block iff each coordinate is in the block's range on its axis. -/
theorem mem_blk1_5 (t : Fin cfg1.N) (i : S10000x40.Idx) :
    i ∈ ((cfg1.win 5).blk t).view.set ↔ ∀ a : Fin 2, win1_5.index t a * S400x40.size a ≤ (i a).val ∧ (i a).val < win1_5.index t a * S400x40.size a + S400x40.size a := by
  show i ∈ ((View.whole main_v0).slice (win1_5.rect t)).set ↔ _
  rw [View.set_slice_whole, Rect.mem_set_unit]
  exact Iff.rfl

/-- Every row of the result array is in the block of the point `row / 400`. -/
theorem cover2 (i : S10000x40.Idx) : ∃ t : Fin cfg1.N, (cfg1.win 5).flush t = true ∧ i ∈ ((cfg1.win 5).blk t).view.set := by
  have hi0 : (i 0).val < 10000 := (i 0).isLt
  have hi1 : (i 1).val < 40 := (i 1).isLt
  have hN : cfg1.N = 25 := N_1
  let t : Fin cfg1.N := ⟨(i 0).val / 400, by rw [hN]; omega⟩
  obtain ⟨e00, e01, e10, e11, e20, e21, e30, e31, e40, e41, e50, e51⟩ := idx1 t
  refine ⟨t, flush1_5 t, ?_⟩
  rw [mem_blk1_5]
  intro a
  have htv : t.val = (i 0).val / 400 := rfl
  match a with
  | ⟨0, _⟩ => show win1_5.index t (0 : Fin 2) * 400 ≤ (i 0).val ∧ (i 0).val < win1_5.index t (0 : Fin 2) * 400 + 400; rw [e50]; omega
  | ⟨1, _⟩ => show win1_5.index t (1 : Fin 2) * 40 ≤ (i 1).val ∧ (i 1).val < win1_5.index t (1 : Fin 2) * 40 + 40; rw [e51]; omega

/-- THE RESULT ARRAY after the second pass: `g2` of the arrays the region found. -/
theorem final2 (c : Dev nD) : (dat1 V c).arrAt 5 cfg1.N = g2 V c :=
  (dat1 V c).arrAt_eq_of_cover 5 (g2 V c) (fun t _ => flushed2 V c t) (cover2)

end Cert.KernelIdeal.Pass

end
-- ==== Proof.KernelValue.lean ====
/-
  The idealized kernel's result as one function of its eight argument arrays. The second region's write-backs leave in
  the result array the row-wise log-softmax of relu (A · G + b2) · W3 + b3, where G is what the first region's
  write-backs left: relu ((A · X) · W1 + b1) · W2. Each region's array function is stated over the arrays the region
  finds; those are the launch arrays up to identities (the format changes) and the re-laying of the biases as one-row
  matrices, so the two compose to `head A (gK A X W1 b1 W2) b2 W3 b3`.
-/
import proofs.«134880_g22385369546847_retrytranche2_1003_2_alg».proof.Proof.KernelRun
import proofs.«134880_g22385369546847_retrytranche2_1003_2_alg».proof.Proof.HostSide
import proofs.«134880_g22385369546847_retrytranche2_1003_2_alg».proof.Proof.Pass1Array
import proofs.«134880_g22385369546847_retrytranche2_1003_2_alg».proof.Proof.Pass2Array
import proofs.«134880_g22385369546847_retrytranche2_1003_2_alg».proof.Proof.Spec

set_option maxRecDepth 16384

noncomputable section

open scoped BigOperators

namespace Cert.KernelIdeal.Whole

open Cert.KernelIdeal Cert.KernelIdeal.Gen Cert.Gcn
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first pass's array function is the second layer's input in the kernel's association, the bias read through its
    one-row re-laying. -/
theorem g1f_eq (A : S10000x10000.Idx → EReal) (X : S10000x128.Idx → EReal) (W1 : S128x128.Idx → EReal) (B1 : S1x128.Idx → EReal)
    (b1 : Arr1 128) (W2 : S128x64.Idx → EReal) (hb : ∀ k : Fin 128, B1 (ix2 0 k) = b1 (ix1 k)) :
    Pass.g1f A X W1 B1 W2 = gK A X W1 b1 W2 := by
  funext i
  obtain ⟨r, n, rfl⟩ : ∃ (r : Fin 10000) (n : Fin 64), i = ix2 r n := ⟨i 0, i 1, eq_ix2 (n0 := 10000) (n1 := 64) i⟩
  unfold Pass.g1f gK gOf axw
  exact Finset.sum_congr rfl fun k _ => by rw [hb k]

/-- The same with each array given up to equality. -/
theorem g1f_eq' {A' A : S10000x10000.Idx → EReal} {X' X : S10000x128.Idx → EReal} {W1' W1 : S128x128.Idx → EReal}
    {B1 : S1x128.Idx → EReal} {b1 : Arr1 128} {W2' W2 : S128x64.Idx → EReal}
    (hA : A' = A) (hX : X' = X) (hW1 : W1' = W1) (hW2 : W2' = W2) (hb : ∀ k : Fin 128, B1 (ix2 0 k) = b1 (ix1 k)) :
    Pass.g1f A' X' W1' B1 W2' = gK A X W1 b1 W2 := by
  subst hA hX hW1 hW2
  exact g1f_eq _ _ _ _ _ _ hb

/-- The first region's array function at the arrays it finds is the second layer's input in the kernel's association. -/
theorem g1_eq (c : Dev nD) :
    Pass.g1 (V1 m ρ) c = gK (m ((c : Thread nD τ).loc main_arg1)) (m ((c : Thread nD τ).loc main_arg0)) (m ((c : Thread nD τ).loc main_arg2)) (m ((c : Thread nD τ).loc main_arg3)) (m ((c : Thread nD τ).loc main_arg4)) :=
  g1f_eq' (HostSide.V1_adj m ρ c) (HostSide.V1_x m ρ c) (HostSide.V1_w1 m ρ c) (HostSide.V1_w2 m ρ c) (HostSide.V1_b1 m ρ c)

/-- So the second region finds that array in its second window. -/
theorem V2_gK (c : Dev nD) :
    V2 m ρ c main_call0_v7 = gK (m ((c : Thread nD τ).loc main_arg1)) (m ((c : Thread nD τ).loc main_arg0)) (m ((c : Thread nD τ).loc main_arg2)) (m ((c : Thread nD τ).loc main_arg3)) (m ((c : Thread nD τ).loc main_arg4)) :=
  (HostSide.V2_g m ρ c).trans ((Pass.final1 (V1 m ρ) c).trans (g1_eq m ρ c))

/-- The second pass's array function is the whole result from the second layer's input, the biases read through their
    one-row re-layings. -/
theorem g2f_eq (A : S10000x10000.Idx → EReal) (G : S10000x64.Idx → EReal) (B2 : S1x64.Idx → EReal) (b2 : Arr1 64)
    (W3 : S64x40.Idx → EReal) (B3 : S1x40.Idx → EReal) (b3 : Arr1 40)
    (hb2 : ∀ n : Fin 64, B2 (ix2 0 n) = b2 (ix1 n)) (hb3 : ∀ q : Fin 40, B3 (ix2 0 q) = b3 (ix1 q)) :
    Pass.g2f A G B2 W3 B3 = head A G b2 W3 b3 := by
  funext i
  obtain ⟨r, q, rfl⟩ : ∃ (r : Fin 10000) (q : Fin 40), i = ix2 r q := ⟨i 0, i 1, eq_ix2 (n0 := 10000) (n1 := 40) i⟩
  unfold Pass.g2f head
  refine congrArg (fun z => lsm z q) (funext fun q' => ?_)
  unfold logit
  rw [hb3 q']
  exact congrArg (· + b3 (ix1 q')) (Finset.sum_congr rfl fun n _ => by rw [hb2 n])

/-- The same with each array given up to equality. -/
theorem g2f_eq' {A' A : S10000x10000.Idx → EReal} {G' G : S10000x64.Idx → EReal} {B2 : S1x64.Idx → EReal} {b2 : Arr1 64}
    {W3' W3 : S64x40.Idx → EReal} {B3 : S1x40.Idx → EReal} {b3 : Arr1 40}
    (hA : A' = A) (hG : G' = G) (hW3 : W3' = W3)
    (hb2 : ∀ n : Fin 64, B2 (ix2 0 n) = b2 (ix1 n)) (hb3 : ∀ q : Fin 40, B3 (ix2 0 q) = b3 (ix1 q)) :
    Pass.g2f A' G' B2 W3' B3 = head A G b2 W3 b3 := by
  subst hA hG hW3
  exact g2f_eq _ _ _ _ _ _ _ hb2 hb3

/-- The second region's array function at the arrays it finds is the whole result. -/
theorem g2_eq (c : Dev nD) :
    Pass.g2 (V2 m ρ) c
      = head (m ((c : Thread nD τ).loc main_arg1)) (gK (m ((c : Thread nD τ).loc main_arg1)) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7)) :=
  g2f_eq' (HostSide.V2_adj m ρ c) (V2_gK m ρ c) (HostSide.V2_w3 m ρ c) (HostSide.V2_b2 m ρ c) (HostSide.V2_b3 m ρ c)

/-- The result buffer's final contents. -/
theorem result_eq (c : Dev nD) :
    W3 m ρ c (Proc.devRef .tc main_v0)
      = head (m ((c : Thread nD τ).loc main_arg1)) (gK (m ((c : Thread nD τ).loc main_arg1)) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7)) :=
  (W3_arr m ρ c 5).trans ((Pass.final2 (V2 m ρ) c).trans (g2_eq m ρ c))

/-- The kernel's run: the result array at that function of the launch arrays, the arguments unchanged. -/
theorem run : θ_run defs (onTc (τ := τ) (main (F := Ideal))) ⟨m, fun _ => 0, ρ⟩ (fun r => ∀ c : Dev nD,
      r.2.mem ((c.tc : Thread nD τ).loc main_v0)
        = head (m ((c : Thread nD τ).loc main_arg1)) (gK (m ((c : Thread nD τ).loc main_arg1)) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Named.run_named m ρ)

end Cert.KernelIdeal.Whole

end
-- ==== Proof.RefRun.lean ====
/-
  What the reference program computes, as two composed terms. Its @main is a straight line of thirty-five host
  operations: twenty that form the logits Z = relu (A · relu (A · (X · W1) + b1) · W2 + b2) · W3 + b3 from the eight
  arguments (`logitsT`), then the fifteen of the row-wise log-softmax applied to Z (`lsmT`, a function of one array).
  Every weakly fair execution terminates with the result buffer at `lsmT (logitsT …)` of the arguments' launch contents
  and the arguments unchanged.
-/
import proofs.«134880_g22385369546847_retrytranche2_1003_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The two composed terms -/

/-- The first layer: relu (A · (X · W1) + b1), as the operations compose it. -/
def layer1T (x0 : (⟨S10000x128, .f32⟩ : BufTy).Contents (Elt F)) (x1 : (⟨S10000x10000, .f32⟩ : BufTy).Contents (Elt F)) (x2 : (⟨S128x128, .f32⟩ : BufTy).Contents (Elt F)) (x3 : (⟨S128, .f32⟩ : BufTy).Contents (Elt F)) :
    (⟨S10000x128, .f32⟩ : BufTy).Contents (Elt F) :=
  maximumf
    (addf
      (Host.dotGeneral dot_S10000x10000_S10000x128_S10000x128_1_0_0_1_n_n none x1
        (Host.dotGeneral dot_S10000x128_S128x128_S10000x128_1_0_0_1_n_n none x0 x2))
      (broadcastInDim S10000x128 ![0, 1] bcast_S1x128_S10000x128_0_1 (broadcastInDim S1x128 ![1] bcast_S128_S1x128_1 x3)))
    (broadcastInDim S10000x128 ![] bcast_S_S10000x128 (constant S_ .f32 0x00000000#32))

/-- The second layer from the first layer's output `h`: relu (A · (h · W2) + b2). -/
def layer2T (h : (⟨S10000x128, .f32⟩ : BufTy).Contents (Elt F)) (x1 : (⟨S10000x10000, .f32⟩ : BufTy).Contents (Elt F)) (x4 : (⟨S128x64, .f32⟩ : BufTy).Contents (Elt F)) (x5 : (⟨S64, .f32⟩ : BufTy).Contents (Elt F)) :
    (⟨S10000x64, .f32⟩ : BufTy).Contents (Elt F) :=
  maximumf
    (addf
      (Host.dotGeneral dot_S10000x10000_S10000x64_S10000x64_1_0_0_1_n_n none x1
        (Host.dotGeneral dot_S10000x128_S128x64_S10000x64_1_0_0_1_n_n none h x4))
      (broadcastInDim S10000x64 ![0, 1] bcast_S1x64_S10000x64_0_1 (broadcastInDim S1x64 ![1] bcast_S64_S1x64_1 x5)))
    (broadcastInDim S10000x64 ![] bcast_S_S10000x64 (constant S_ .f32 0x00000000#32))

/-- The classifier from the second layer's output `h`: h · W3 + b3. -/
def layer3T (h : (⟨S10000x64, .f32⟩ : BufTy).Contents (Elt F)) (x6 : (⟨S64x40, .f32⟩ : BufTy).Contents (Elt F)) (x7 : (⟨S40, .f32⟩ : BufTy).Contents (Elt F)) : (⟨S10000x40, .f32⟩ : BufTy).Contents (Elt F) :=
  addf
    (Host.dotGeneral dot_S10000x64_S64x40_S10000x40_1_0_0_1_n_n none h x6)
    (broadcastInDim S10000x40 ![0, 1] bcast_S1x40_S10000x40_0_1 (broadcastInDim S1x40 ![1] bcast_S40_S1x40_1 x7))

/-- The logits, as the first twenty operations compose them from the eight arguments. -/
def logitsT (x0 : (⟨S10000x128, .f32⟩ : BufTy).Contents (Elt F)) (x1 : (⟨S10000x10000, .f32⟩ : BufTy).Contents (Elt F)) (x2 : (⟨S128x128, .f32⟩ : BufTy).Contents (Elt F)) (x3 : (⟨S128, .f32⟩ : BufTy).Contents (Elt F))
    (x4 : (⟨S128x64, .f32⟩ : BufTy).Contents (Elt F)) (x5 : (⟨S64, .f32⟩ : BufTy).Contents (Elt F)) (x6 : (⟨S64x40, .f32⟩ : BufTy).Contents (Elt F)) (x7 : (⟨S40, .f32⟩ : BufTy).Contents (Elt F)) : (⟨S10000x40, .f32⟩ : BufTy).Contents (Elt F) :=
  layer3T (layer2T (layer1T x0 x1 x2 x3) x1 x4 x5) x6 x7

/-- The row maximum as the log-softmax forms it: max (−∞, the fold of max from −∞ along the row). -/
def rowMaxT (z : (⟨S10000x40, .f32⟩ : BufTy).Contents (Elt F)) : (⟨S10000, .f32⟩ : BufTy).Contents (Elt F) :=
  maximumf (broadcastInDim S10000 ![] bcast_S_S10000 (constant S_ .f32 0xFF800000#32))
    (Host.reduce FloatOps.maximumf z (constant S_ .f32 0xFF800000#32) reducesTo_S10000x40_S10000_d1 h_S_)

/-- The entries less their row's maximum. -/
def shiftedT (z : (⟨S10000x40, .f32⟩ : BufTy).Contents (Elt F)) : (⟨S10000x40, .f32⟩ : BufTy).Contents (Elt F) :=
  subf z (broadcastInDim S10000x40 ![0, 1] bcast_S10000x1_S10000x40_0_1
    (broadcastInDim S10000x1 ![0] bcast_S10000_S10000x1_0 (rowMaxT z)))

/-- The log-softmax of an array `z`, as the last fifteen operations compose it. -/
def lsmT (z : (⟨S10000x40, .f32⟩ : BufTy).Contents (Elt F)) : (⟨S10000x40, .f32⟩ : BufTy).Contents (Elt F) :=
  subf (shiftedT z)
    (broadcastInDim S10000x40 ![0, 1] bcast_S10000x1_S10000x40_0_1
      (Host.log (broadcastInDim S10000x1 ![0] bcast_S10000_S10000x1_0
        (Host.reduceAdd (Host.exp (shiftedT z)) (constant S_ .f32 0x00000000#32) reducesTo_S10000x40_S10000_d1 h_S_))))

/-! ## The operations -/

/-- The twenty operations that form the logits, in order. -/
abbrev ops1 : List (HloOp τ sig (Elt F)) :=
  [ binary main_arg0 main_arg2 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v0 main_v1 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S10000x128 ![0, 1] bcast_S1x128_S10000x128_0_1 : (⟨S1x128, .f32⟩ : BufTy).Contents (Elt F) → (⟨S10000x128, .f32⟩ : BufTy).Contents (Elt F)),
    binary main_v1 main_v3 main_v4 (addf : (⟨S10000x128, .f32⟩ : BufTy).Contents (Elt F) → (⟨S10000x128, .f32⟩ : BufTy).Contents (Elt F) → (⟨S10000x128, .f32⟩ : BufTy).Contents (Elt F)),
    nullary main_cst (constant S_ .f32 0x00000000#32),
    unary main_cst main_v5 (broadcastInDim S10000x128 ![] bcast_S_S10000x128 : (⟨S_, .f32⟩ : BufTy).Contents (Elt F) → (⟨S10000x128, .f32⟩ : BufTy).Contents (Elt F)),
    binary main_v4 main_v5 main_v6 (maximumf : (⟨S10000x128, .f32⟩ : BufTy).Contents (Elt F) → (⟨S10000x128, .f32⟩ : BufTy).Contents (Elt F) → (⟨S10000x128, .f32⟩ : BufTy).Contents (Elt F)),
    binary main_v6 main_arg4 main_v7 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    binary main_arg1 main_v7 main_v8 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg5 main_v9 (broadcastInDim S1x64 ![1] bcast_S64_S1x64_1 : (⟨S64, .f32⟩ : BufTy).Contents (Elt F) → (⟨S1x64, .f32⟩ : BufTy).Contents (Elt F)),
    unary main_v9 main_v10 (broadcastInDim S10000x64 ![0, 1] bcast_S1x64_S10000x64_0_1 : (⟨S1x64, .f32⟩ : BufTy).Contents (Elt F) → (⟨S10000x64, .f32⟩ : BufTy).Contents (Elt F)),
    binary main_v8 main_v10 main_v11 (addf : (⟨S10000x64, .f32⟩ : BufTy).Contents (Elt F) → (⟨S10000x64, .f32⟩ : BufTy).Contents (Elt F) → (⟨S10000x64, .f32⟩ : BufTy).Contents (Elt F)),
    nullary main_cst_0 (constant S_ .f32 0x00000000#32),
    unary main_cst_0 main_v12 (broadcastInDim S10000x64 ![] bcast_S_S10000x64 : (⟨S_, .f32⟩ : BufTy).Contents (Elt F) → (⟨S10000x64, .f32⟩ : BufTy).Contents (Elt F)),
    binary main_v11 main_v12 main_v13 (maximumf : (⟨S10000x64, .f32⟩ : BufTy).Contents (Elt F) → (⟨S10000x64, .f32⟩ : BufTy).Contents (Elt F) → (⟨S10000x64, .f32⟩ : BufTy).Contents (Elt F)),
    binary main_v13 main_arg6 main_v14 ((fun l r => Host.dotGeneral dot_S10000x64_S64x40_S10000x40_1_0_0_1_n_n none l r) : (⟨S10000x64, .f32⟩ : BufTy).Contents (Elt F) → (⟨S64x40, .f32⟩ : BufTy).Contents (Elt F) → (⟨S10000x40, .f32⟩ : BufTy).Contents (Elt F)),
    unary main_arg7 main_v15 (broadcastInDim S1x40 ![1] bcast_S40_S1x40_1 : (⟨S40, .f32⟩ : BufTy).Contents (Elt F) → (⟨S1x40, .f32⟩ : BufTy).Contents (Elt F)),
    unary main_v15 main_v16 (broadcastInDim S10000x40 ![0, 1] bcast_S1x40_S10000x40_0_1 : (⟨S1x40, .f32⟩ : BufTy).Contents (Elt F) → (⟨S10000x40, .f32⟩ : BufTy).Contents (Elt F)),
    binary main_v14 main_v16 main_v17 (addf : (⟨S10000x40, .f32⟩ : BufTy).Contents (Elt F) → (⟨S10000x40, .f32⟩ : BufTy).Contents (Elt F) → (⟨S10000x40, .f32⟩ : BufTy).Contents (Elt F)) ]

/-- The fifteen operations of the log-softmax, over the logits' buffer and the call's own buffers, in order. -/
abbrev ops2 : List (HloOp τ sig (Elt F)) :=
  [ TRef.nullary main_call0.cst (constant S_ .f32 0xFF800000#32),
    TRef.binary (TRef.of (T := ⟨S10000x40, .f32⟩) main_v17) main_call0.cst main_call0.v0 (fun x v => Host.reduce FloatOps.maximumf x v reducesTo_S10000x40_S10000_d1 h_S_),
    TRef.nullary main_call0.cst_0 (constant S_ .f32 0xFF800000#32),
    TRef.unary main_call0.cst_0 main_call0.v1 (broadcastInDim S10000 ![] bcast_S_S10000),
    TRef.binary main_call0.v1 main_call0.v0 main_call0.v2 maximumf,
    TRef.unary main_call0.v2 main_call0.v3 (broadcastInDim S10000x1 ![0] bcast_S10000_S10000x1_0),
    TRef.unary main_call0.v3 main_call0.v4 (broadcastInDim S10000x40 ![0, 1] bcast_S10000x1_S10000x40_0_1),
    TRef.binary (TRef.of (T := ⟨S10000x40, .f32⟩) main_v17) main_call0.v4 main_call0.v5 subf,
    TRef.unary main_call0.v5 main_call0.v6 Host.exp,
    TRef.nullary main_call0.cst_1 (constant S_ .f32 0x00000000#32),
    TRef.binary main_call0.v6 main_call0.cst_1 main_call0.v7 (fun x v => Host.reduceAdd x v reducesTo_S10000x40_S10000_d1 h_S_),
    TRef.unary main_call0.v7 main_call0.v8 (broadcastInDim S10000x1 ![0] bcast_S10000_S10000x1_0),
    TRef.unary main_call0.v8 main_call0.v9 Host.log,
    TRef.unary main_call0.v9 main_call0.v10 (broadcastInDim S10000x40 ![0, 1] bcast_S10000x1_S10000x40_0_1),
    TRef.binary main_call0.v5 main_call0.v10 main_call0.v11 subf ]

set_option maxRecDepth 4096 in
/-- @main is that straight line: the called function's body unfolded at its call, both sides are one chain of steps
    once sequencing is reassociated. -/
theorem main_eq (c : Dev nD) : main (F := F) c = seq (ops1 ++ ops2) := by
  rfl

/-! ## The fold of a concatenation -/

/-- The contents after two lines run one after the other: the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The first stretch: the logits -/

/-- After the first twenty operations the logits' buffer holds `logitsT` of the arguments' contents. -/
theorem logits_after (V : Valuation τ sig (Elt F)) :
    after ops1 V (Proc.devRef .tc main_v17)
      = logitsT (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) := by
  after_results_simp
  rfl

theorem arg0_after1 (V : Valuation τ sig (Elt F)) :
    after ops1 V (Proc.devRef .tc main_arg0) = V (Proc.devRef .tc main_arg0) := by
  after_results_simp
theorem arg1_after1 (V : Valuation τ sig (Elt F)) :
    after ops1 V (Proc.devRef .tc main_arg1) = V (Proc.devRef .tc main_arg1) := by
  after_results_simp
theorem arg2_after1 (V : Valuation τ sig (Elt F)) :
    after ops1 V (Proc.devRef .tc main_arg2) = V (Proc.devRef .tc main_arg2) := by
  after_results_simp
theorem arg3_after1 (V : Valuation τ sig (Elt F)) :
    after ops1 V (Proc.devRef .tc main_arg3) = V (Proc.devRef .tc main_arg3) := by
  after_results_simp
theorem arg4_after1 (V : Valuation τ sig (Elt F)) :
    after ops1 V (Proc.devRef .tc main_arg4) = V (Proc.devRef .tc main_arg4) := by
  after_results_simp
theorem arg5_after1 (V : Valuation τ sig (Elt F)) :
    after ops1 V (Proc.devRef .tc main_arg5) = V (Proc.devRef .tc main_arg5) := by
  after_results_simp
theorem arg6_after1 (V : Valuation τ sig (Elt F)) :
    after ops1 V (Proc.devRef .tc main_arg6) = V (Proc.devRef .tc main_arg6) := by
  after_results_simp
theorem arg7_after1 (V : Valuation τ sig (Elt F)) :
    after ops1 V (Proc.devRef .tc main_arg7) = V (Proc.devRef .tc main_arg7) := by
  after_results_simp

/-! ## The second stretch: the log-softmax of whatever the logits' buffer holds -/

/-- After the fifteen operations of the log-softmax the result buffer holds `lsmT` of the logits' buffer's contents. -/
theorem lsm_after (W : Valuation τ sig (Elt F)) :
    after ops2 W (Proc.devRef .tc main_v18) = lsmT (W (Proc.devRef .tc main_v17)) := by
  after_results_simp
  simp only [TRef.ofBuf, TRef.toBuf, cast_cast, cast_eq]
  rfl

theorem arg0_after2 (W : Valuation τ sig (Elt F)) :
    after ops2 W (Proc.devRef .tc main_arg0) = W (Proc.devRef .tc main_arg0) := by
  after_results_simp
theorem arg1_after2 (W : Valuation τ sig (Elt F)) :
    after ops2 W (Proc.devRef .tc main_arg1) = W (Proc.devRef .tc main_arg1) := by
  after_results_simp
theorem arg2_after2 (W : Valuation τ sig (Elt F)) :
    after ops2 W (Proc.devRef .tc main_arg2) = W (Proc.devRef .tc main_arg2) := by
  after_results_simp
theorem arg3_after2 (W : Valuation τ sig (Elt F)) :
    after ops2 W (Proc.devRef .tc main_arg3) = W (Proc.devRef .tc main_arg3) := by
  after_results_simp
theorem arg4_after2 (W : Valuation τ sig (Elt F)) :
    after ops2 W (Proc.devRef .tc main_arg4) = W (Proc.devRef .tc main_arg4) := by
  after_results_simp
theorem arg5_after2 (W : Valuation τ sig (Elt F)) :
    after ops2 W (Proc.devRef .tc main_arg5) = W (Proc.devRef .tc main_arg5) := by
  after_results_simp
theorem arg6_after2 (W : Valuation τ sig (Elt F)) :
    after ops2 W (Proc.devRef .tc main_arg6) = W (Proc.devRef .tc main_arg6) := by
  after_results_simp
theorem arg7_after2 (W : Valuation τ sig (Elt F)) :
    after ops2 W (Proc.devRef .tc main_arg7) = W (Proc.devRef .tc main_arg7) := by
  after_results_simp

/-! ## The run -/

theorem scopedRefs_eq : (Finset.univ.filter fun b : Ref sig .tc => b.isScoped) = ∅ := by decide
theorem scopedSems_eq : (Finset.univ.filter fun sm : SemLoc sig => sm.isScoped .tc) = ∅ := by decide

theorem ops1_sub : (ops1 : List (HloOp τ sig (Elt F))).Forall fun op => op.bufs ⊆ tcRefs τ sig :=
  ⟨binary_bufs_sub .., binary_bufs_sub .., unary_bufs_sub .., unary_bufs_sub .., binary_bufs_sub .., nullary_bufs_sub ..,
    unary_bufs_sub .., binary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub ..⟩

theorem ops2_sub : (ops2 : List (HloOp τ sig (Elt F))).Forall fun op => op.bufs ⊆ tcRefs τ sig :=
  ⟨nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub ..⟩

theorem ops_sub : (ops1 ++ ops2 : List (HloOp τ sig (Elt F))).Forall fun op => op.bufs ⊆ tcRefs τ sig :=
  List.forall_iff_forall_mem.mpr fun op h => (List.mem_append.mp h).elim
    (List.forall_iff_forall_mem.mp ops1_sub op) (List.forall_iff_forall_mem.mp ops2_sub op)

theorem fresh1 : ∀ op ∈ (ops1 : List (HloOp τ sig (Elt F))), op.fresh = ∅ := by
  intro _ h; (repeat (cases h with | head => rfl | tail _ h => ?_)); exact nomatch h

theorem fresh2 : ∀ op ∈ (ops2 : List (HloOp τ sig (Elt F))), op.fresh = ∅ := by
  intro _ h; (repeat (cases h with | head => rfl | tail _ h => ?_)); exact nomatch h

/-- What the whole line leaves in the result buffer, from any contents. -/
theorem result_after (V : Valuation τ sig (Elt F)) :
    after (ops1 ++ ops2) V (Proc.devRef .tc main_v18)
      = lsmT (logitsT (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7))) := by
  rw [after_append, lsm_after, logits_after]

theorem arg0_after (V : Valuation τ sig (Elt F)) :
    after (ops1 ++ ops2) V (Proc.devRef .tc main_arg0) = V (Proc.devRef .tc main_arg0) := by
  rw [after_append, arg0_after2, arg0_after1]
theorem arg1_after (V : Valuation τ sig (Elt F)) :
    after (ops1 ++ ops2) V (Proc.devRef .tc main_arg1) = V (Proc.devRef .tc main_arg1) := by
  rw [after_append, arg1_after2, arg1_after1]
theorem arg2_after (V : Valuation τ sig (Elt F)) :
    after (ops1 ++ ops2) V (Proc.devRef .tc main_arg2) = V (Proc.devRef .tc main_arg2) := by
  rw [after_append, arg2_after2, arg2_after1]
theorem arg3_after (V : Valuation τ sig (Elt F)) :
    after (ops1 ++ ops2) V (Proc.devRef .tc main_arg3) = V (Proc.devRef .tc main_arg3) := by
  rw [after_append, arg3_after2, arg3_after1]
theorem arg4_after (V : Valuation τ sig (Elt F)) :
    after (ops1 ++ ops2) V (Proc.devRef .tc main_arg4) = V (Proc.devRef .tc main_arg4) := by
  rw [after_append, arg4_after2, arg4_after1]
theorem arg5_after (V : Valuation τ sig (Elt F)) :
    after (ops1 ++ ops2) V (Proc.devRef .tc main_arg5) = V (Proc.devRef .tc main_arg5) := by
  rw [after_append, arg5_after2, arg5_after1]
theorem arg6_after (V : Valuation τ sig (Elt F)) :
    after (ops1 ++ ops2) V (Proc.devRef .tc main_arg6) = V (Proc.devRef .tc main_arg6) := by
  rw [after_append, arg6_after2, arg6_after1]
theorem arg7_after (V : Valuation τ sig (Elt F)) :
    after (ops1 ++ ops2) V (Proc.devRef .tc main_arg7) = V (Proc.devRef .tc main_arg7) := by
  rw [after_append, arg7_after2, arg7_after1]

/-- On every device, for any float values, from any memory with zero counters: every weakly fair execution of @main
    terminates with the result at the log-softmax term of the logits term of the arguments, and the arguments unchanged. -/
theorem run_hand (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18)
          = lsmT (logitsT (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v18).trans (result_after _),
      (h c main_arg0).trans (arg0_after _),
      (h c main_arg1).trans (arg1_after _),
      (h c main_arg2).trans (arg2_after _),
      (h c main_arg3).trans (arg3_after _),
      (h c main_arg4).trans (arg4_after _),
      (h c main_arg5).trans (arg5_after _),
      (h c main_arg6).trans (arg6_after _),
      (h c main_arg7).trans (arg7_after _)⟩)
    (run_seq scopedRefs_eq scopedSems_eq defs main (fun _ => ops1 ++ ops2) main_eq (fun _ => ops_sub) m ρ
      (fun _ op h => (List.mem_append.mp h).elim (fresh1 op) (fresh2 op)))

end Cert.ReferenceIdeal.Hand

end
-- ==== Proof.RefValue.lean ====
/-
  The reference program's two composed terms read entry by entry on the extended reals, and identified with the shared
  specification: the logits term is `logit` over the second layer's input formed with the features transformed first
  (`gR`), the log-softmax term of an array is `lsm` of each of its rows, so the reference's result is `head` of `gR`.
  A matrix product at an entry is the sum over the contracted coordinate of the operands' products; a bias broadcast
  along the rows reads its column's entry; the relu's threshold is the zero word; a row's maximum is the fold of `max`
  from −∞ over the row (a further maximum with −∞ changes nothing); a row's sum starts from the zero word, which is 0.
-/
import proofs.«134880_g22385369546847_retrytranche2_1003_2_alg».proof.Proof.RefRun
import proofs.«134880_g22385369546847_retrytranche2_1003_2_alg».proof.Proof.Spec
import Idealize.ShloMosaic.PureOps.Ideal.Laws
import Idealize.ShloMosaic.Lib.ValueIdx
import Idealize.ShloMosaic.Lib.Pipeline.Value

noncomputable section

open scoped BigOperators

namespace Cert.ReferenceIdeal.Hand

open Cert.ReferenceIdeal Cert.ReferenceIdeal.Gen Idealize.ShloMosaic Idealize.ShloMosaic.ValueIdx Idealize.ShloMosaic.TcCoe Idealize.SL.Sem

/-! ## The matrix products at an entry -/

/-- X · W1 at (i, k): the sum over the 128 feature coordinates. -/
theorem dotXW1_apply (l : FVec Ideal S10000x128 .f32) (r : FVec Ideal S128x128 .f32) (i : Fin 10000) (k : Fin 128) :
    Host.dotGeneral (F := Ideal) dot_S10000x128_S128x128_S10000x128_1_0_0_1_n_n none l r (ix2 i k) = ∑ n : Fin 128, l (ix2 i n) * r (ix2 n k) := by
  simp only [Host.dotGeneral]
  rw [Ideal.dotGeneral_apply, ← Equiv.sum_comp (contrEquiv1 dot_S10000x128_S128x128_S10000x128_1_0_0_1_n_n 128 rfl rfl).symm]
  refine Finset.sum_congr rfl fun n _ => ?_
  have hl0 : (dot_S10000x128_S128x128_S10000x128_1_0_0_1_n_n.lhsIdx (ix2 i k) ((contrEquiv1 dot_S10000x128_S128x128_S10000x128_1_0_0_1_n_n 128 rfl rfl).symm n) ⟨0, by decide⟩).val = i.val := by
    unfold DotDims.lhsIdx; rw [dif_neg (by decide), dif_pos (by decide)]; rfl
  have hl1 : (dot_S10000x128_S128x128_S10000x128_1_0_0_1_n_n.lhsIdx (ix2 i k) ((contrEquiv1 dot_S10000x128_S128x128_S10000x128_1_0_0_1_n_n 128 rfl rfl).symm n) ⟨1, by decide⟩).val = n.val :=
    (DotDims.lhsIdx_val_of_single _ rfl _ _).trans (contrEquiv1_symm_val dot_S10000x128_S128x128_S10000x128_1_0_0_1_n_n 128 rfl rfl n)
  have hr0 : (dot_S10000x128_S128x128_S10000x128_1_0_0_1_n_n.rhsIdx (ix2 i k) ((contrEquiv1 dot_S10000x128_S128x128_S10000x128_1_0_0_1_n_n 128 rfl rfl).symm n) ⟨0, by decide⟩).val = n.val :=
    (DotDims.rhsIdx_val_of_single _ rfl _ _).trans (contrEquiv1_symm_val dot_S10000x128_S128x128_S10000x128_1_0_0_1_n_n 128 rfl rfl n)
  have hr1 : (dot_S10000x128_S128x128_S10000x128_1_0_0_1_n_n.rhsIdx (ix2 i k) ((contrEquiv1 dot_S10000x128_S128x128_S10000x128_1_0_0_1_n_n 128 rfl rfl).symm n) ⟨1, by decide⟩).val = k.val := by
    unfold DotDims.rhsIdx; rw [dif_neg (by decide), dif_pos (by decide)]; rfl
  congr 1
  · exact congrArg l (funext fun a => Fin.ext (by match a with | ⟨0, _⟩ => exact hl0 | ⟨1, _⟩ => exact hl1))
  · exact congrArg r (funext fun a => Fin.ext (by match a with | ⟨0, _⟩ => exact hr0 | ⟨1, _⟩ => exact hr1))

/-- A · M at (i, k) for a 10000 × 128 matrix M: the sum over the 10000 nodes. -/
theorem dotAXW_apply (l : FVec Ideal S10000x10000 .f32) (r : FVec Ideal S10000x128 .f32) (i : Fin 10000) (k : Fin 128) :
    Host.dotGeneral (F := Ideal) dot_S10000x10000_S10000x128_S10000x128_1_0_0_1_n_n none l r (ix2 i k) = ∑ n : Fin 10000, l (ix2 i n) * r (ix2 n k) := by
  simp only [Host.dotGeneral]
  rw [Ideal.dotGeneral_apply, ← Equiv.sum_comp (contrEquiv1 dot_S10000x10000_S10000x128_S10000x128_1_0_0_1_n_n 10000 rfl rfl).symm]
  refine Finset.sum_congr rfl fun n _ => ?_
  have hl0 : (dot_S10000x10000_S10000x128_S10000x128_1_0_0_1_n_n.lhsIdx (ix2 i k) ((contrEquiv1 dot_S10000x10000_S10000x128_S10000x128_1_0_0_1_n_n 10000 rfl rfl).symm n) ⟨0, by decide⟩).val = i.val := by
    unfold DotDims.lhsIdx; rw [dif_neg (by decide), dif_pos (by decide)]; rfl
  have hl1 : (dot_S10000x10000_S10000x128_S10000x128_1_0_0_1_n_n.lhsIdx (ix2 i k) ((contrEquiv1 dot_S10000x10000_S10000x128_S10000x128_1_0_0_1_n_n 10000 rfl rfl).symm n) ⟨1, by decide⟩).val = n.val :=
    (DotDims.lhsIdx_val_of_single _ rfl _ _).trans (contrEquiv1_symm_val dot_S10000x10000_S10000x128_S10000x128_1_0_0_1_n_n 10000 rfl rfl n)
  have hr0 : (dot_S10000x10000_S10000x128_S10000x128_1_0_0_1_n_n.rhsIdx (ix2 i k) ((contrEquiv1 dot_S10000x10000_S10000x128_S10000x128_1_0_0_1_n_n 10000 rfl rfl).symm n) ⟨0, by decide⟩).val = n.val :=
    (DotDims.rhsIdx_val_of_single _ rfl _ _).trans (contrEquiv1_symm_val dot_S10000x10000_S10000x128_S10000x128_1_0_0_1_n_n 10000 rfl rfl n)
  have hr1 : (dot_S10000x10000_S10000x128_S10000x128_1_0_0_1_n_n.rhsIdx (ix2 i k) ((contrEquiv1 dot_S10000x10000_S10000x128_S10000x128_1_0_0_1_n_n 10000 rfl rfl).symm n) ⟨1, by decide⟩).val = k.val := by
    unfold DotDims.rhsIdx; rw [dif_neg (by decide), dif_pos (by decide)]; rfl
  congr 1
  · exact congrArg l (funext fun a => Fin.ext (by match a with | ⟨0, _⟩ => exact hl0 | ⟨1, _⟩ => exact hl1))
  · exact congrArg r (funext fun a => Fin.ext (by match a with | ⟨0, _⟩ => exact hr0 | ⟨1, _⟩ => exact hr1))

/-- H · W2 at (i, k): the sum over the 128 hidden coordinates. -/
theorem dotHW2_apply (l : FVec Ideal S10000x128 .f32) (r : FVec Ideal S128x64 .f32) (i : Fin 10000) (k : Fin 64) :
    Host.dotGeneral (F := Ideal) dot_S10000x128_S128x64_S10000x64_1_0_0_1_n_n none l r (ix2 i k) = ∑ n : Fin 128, l (ix2 i n) * r (ix2 n k) := by
  simp only [Host.dotGeneral]
  rw [Ideal.dotGeneral_apply, ← Equiv.sum_comp (contrEquiv1 dot_S10000x128_S128x64_S10000x64_1_0_0_1_n_n 128 rfl rfl).symm]
  refine Finset.sum_congr rfl fun n _ => ?_
  have hl0 : (dot_S10000x128_S128x64_S10000x64_1_0_0_1_n_n.lhsIdx (ix2 i k) ((contrEquiv1 dot_S10000x128_S128x64_S10000x64_1_0_0_1_n_n 128 rfl rfl).symm n) ⟨0, by decide⟩).val = i.val := by
    unfold DotDims.lhsIdx; rw [dif_neg (by decide), dif_pos (by decide)]; rfl
  have hl1 : (dot_S10000x128_S128x64_S10000x64_1_0_0_1_n_n.lhsIdx (ix2 i k) ((contrEquiv1 dot_S10000x128_S128x64_S10000x64_1_0_0_1_n_n 128 rfl rfl).symm n) ⟨1, by decide⟩).val = n.val :=
    (DotDims.lhsIdx_val_of_single _ rfl _ _).trans (contrEquiv1_symm_val dot_S10000x128_S128x64_S10000x64_1_0_0_1_n_n 128 rfl rfl n)
  have hr0 : (dot_S10000x128_S128x64_S10000x64_1_0_0_1_n_n.rhsIdx (ix2 i k) ((contrEquiv1 dot_S10000x128_S128x64_S10000x64_1_0_0_1_n_n 128 rfl rfl).symm n) ⟨0, by decide⟩).val = n.val :=
    (DotDims.rhsIdx_val_of_single _ rfl _ _).trans (contrEquiv1_symm_val dot_S10000x128_S128x64_S10000x64_1_0_0_1_n_n 128 rfl rfl n)
  have hr1 : (dot_S10000x128_S128x64_S10000x64_1_0_0_1_n_n.rhsIdx (ix2 i k) ((contrEquiv1 dot_S10000x128_S128x64_S10000x64_1_0_0_1_n_n 128 rfl rfl).symm n) ⟨1, by decide⟩).val = k.val := by
    unfold DotDims.rhsIdx; rw [dif_neg (by decide), dif_pos (by decide)]; rfl
  congr 1
  · exact congrArg l (funext fun a => Fin.ext (by match a with | ⟨0, _⟩ => exact hl0 | ⟨1, _⟩ => exact hl1))
  · exact congrArg r (funext fun a => Fin.ext (by match a with | ⟨0, _⟩ => exact hr0 | ⟨1, _⟩ => exact hr1))

/-- A · G at (i, k) for a 10000 × 64 matrix G: the sum over the 10000 nodes. -/
theorem dotAG_apply (l : FVec Ideal S10000x10000 .f32) (r : FVec Ideal S10000x64 .f32) (i : Fin 10000) (k : Fin 64) :
    Host.dotGeneral (F := Ideal) dot_S10000x10000_S10000x64_S10000x64_1_0_0_1_n_n none l r (ix2 i k) = ∑ n : Fin 10000, l (ix2 i n) * r (ix2 n k) := by
  simp only [Host.dotGeneral]
  rw [Ideal.dotGeneral_apply, ← Equiv.sum_comp (contrEquiv1 dot_S10000x10000_S10000x64_S10000x64_1_0_0_1_n_n 10000 rfl rfl).symm]
  refine Finset.sum_congr rfl fun n _ => ?_
  have hl0 : (dot_S10000x10000_S10000x64_S10000x64_1_0_0_1_n_n.lhsIdx (ix2 i k) ((contrEquiv1 dot_S10000x10000_S10000x64_S10000x64_1_0_0_1_n_n 10000 rfl rfl).symm n) ⟨0, by decide⟩).val = i.val := by
    unfold DotDims.lhsIdx; rw [dif_neg (by decide), dif_pos (by decide)]; rfl
  have hl1 : (dot_S10000x10000_S10000x64_S10000x64_1_0_0_1_n_n.lhsIdx (ix2 i k) ((contrEquiv1 dot_S10000x10000_S10000x64_S10000x64_1_0_0_1_n_n 10000 rfl rfl).symm n) ⟨1, by decide⟩).val = n.val :=
    (DotDims.lhsIdx_val_of_single _ rfl _ _).trans (contrEquiv1_symm_val dot_S10000x10000_S10000x64_S10000x64_1_0_0_1_n_n 10000 rfl rfl n)
  have hr0 : (dot_S10000x10000_S10000x64_S10000x64_1_0_0_1_n_n.rhsIdx (ix2 i k) ((contrEquiv1 dot_S10000x10000_S10000x64_S10000x64_1_0_0_1_n_n 10000 rfl rfl).symm n) ⟨0, by decide⟩).val = n.val :=
    (DotDims.rhsIdx_val_of_single _ rfl _ _).trans (contrEquiv1_symm_val dot_S10000x10000_S10000x64_S10000x64_1_0_0_1_n_n 10000 rfl rfl n)
  have hr1 : (dot_S10000x10000_S10000x64_S10000x64_1_0_0_1_n_n.rhsIdx (ix2 i k) ((contrEquiv1 dot_S10000x10000_S10000x64_S10000x64_1_0_0_1_n_n 10000 rfl rfl).symm n) ⟨1, by decide⟩).val = k.val := by
    unfold DotDims.rhsIdx; rw [dif_neg (by decide), dif_pos (by decide)]; rfl
  congr 1
  · exact congrArg l (funext fun a => Fin.ext (by match a with | ⟨0, _⟩ => exact hl0 | ⟨1, _⟩ => exact hl1))
  · exact congrArg r (funext fun a => Fin.ext (by match a with | ⟨0, _⟩ => exact hr0 | ⟨1, _⟩ => exact hr1))

/-- H · W3 at (i, k): the sum over the 64 hidden coordinates. -/
theorem dotHW3_apply (l : FVec Ideal S10000x64 .f32) (r : FVec Ideal S64x40 .f32) (i : Fin 10000) (k : Fin 40) :
    Host.dotGeneral (F := Ideal) dot_S10000x64_S64x40_S10000x40_1_0_0_1_n_n none l r (ix2 i k) = ∑ n : Fin 64, l (ix2 i n) * r (ix2 n k) := by
  simp only [Host.dotGeneral]
  rw [Ideal.dotGeneral_apply, ← Equiv.sum_comp (contrEquiv1 dot_S10000x64_S64x40_S10000x40_1_0_0_1_n_n 64 rfl rfl).symm]
  refine Finset.sum_congr rfl fun n _ => ?_
  have hl0 : (dot_S10000x64_S64x40_S10000x40_1_0_0_1_n_n.lhsIdx (ix2 i k) ((contrEquiv1 dot_S10000x64_S64x40_S10000x40_1_0_0_1_n_n 64 rfl rfl).symm n) ⟨0, by decide⟩).val = i.val := by
    unfold DotDims.lhsIdx; rw [dif_neg (by decide), dif_pos (by decide)]; rfl
  have hl1 : (dot_S10000x64_S64x40_S10000x40_1_0_0_1_n_n.lhsIdx (ix2 i k) ((contrEquiv1 dot_S10000x64_S64x40_S10000x40_1_0_0_1_n_n 64 rfl rfl).symm n) ⟨1, by decide⟩).val = n.val :=
    (DotDims.lhsIdx_val_of_single _ rfl _ _).trans (contrEquiv1_symm_val dot_S10000x64_S64x40_S10000x40_1_0_0_1_n_n 64 rfl rfl n)
  have hr0 : (dot_S10000x64_S64x40_S10000x40_1_0_0_1_n_n.rhsIdx (ix2 i k) ((contrEquiv1 dot_S10000x64_S64x40_S10000x40_1_0_0_1_n_n 64 rfl rfl).symm n) ⟨0, by decide⟩).val = n.val :=
    (DotDims.rhsIdx_val_of_single _ rfl _ _).trans (contrEquiv1_symm_val dot_S10000x64_S64x40_S10000x40_1_0_0_1_n_n 64 rfl rfl n)
  have hr1 : (dot_S10000x64_S64x40_S10000x40_1_0_0_1_n_n.rhsIdx (ix2 i k) ((contrEquiv1 dot_S10000x64_S64x40_S10000x40_1_0_0_1_n_n 64 rfl rfl).symm n) ⟨1, by decide⟩).val = k.val := by
    unfold DotDims.rhsIdx; rw [dif_neg (by decide), dif_pos (by decide)]; rfl
  congr 1
  · exact congrArg l (funext fun a => Fin.ext (by match a with | ⟨0, _⟩ => exact hl0 | ⟨1, _⟩ => exact hl1))
  · exact congrArg r (funext fun a => Fin.ext (by match a with | ⟨0, _⟩ => exact hr0 | ⟨1, _⟩ => exact hr1))

/-! ## The broadcasts at an entry -/

/-- A bias vector broadcast along the rows reads its column's entry. -/
theorem bias128_apply (x : FVec Ideal S128 .f32) (i : Fin 10000) (k : Fin 128) :
    broadcastInDim S10000x128 ![0, 1] bcast_S1x128_S10000x128_0_1 (broadcastInDim S1x128 ![1] bcast_S128_S1x128_1 x) (ix2 i k) = x (ix1 k) := by
  rw [broadcastInDim_apply _ _ _ _ (ix2 (0 : Fin 1) k) (fun a => by match a with | ⟨0, _⟩ => rfl | ⟨1, _⟩ => rfl),
    broadcastInDim_apply _ _ _ _ (ix1 k) (fun a => by match a with | ⟨0, _⟩ => rfl)]

/-- A bias vector broadcast along the rows reads its column's entry. -/
theorem bias64_apply (x : FVec Ideal S64 .f32) (i : Fin 10000) (k : Fin 64) :
    broadcastInDim S10000x64 ![0, 1] bcast_S1x64_S10000x64_0_1 (broadcastInDim S1x64 ![1] bcast_S64_S1x64_1 x) (ix2 i k) = x (ix1 k) := by
  rw [broadcastInDim_apply _ _ _ _ (ix2 (0 : Fin 1) k) (fun a => by match a with | ⟨0, _⟩ => rfl | ⟨1, _⟩ => rfl),
    broadcastInDim_apply _ _ _ _ (ix1 k) (fun a => by match a with | ⟨0, _⟩ => rfl)]

/-- A bias vector broadcast along the rows reads its column's entry. -/
theorem bias40_apply (x : FVec Ideal S40 .f32) (i : Fin 10000) (k : Fin 40) :
    broadcastInDim S10000x40 ![0, 1] bcast_S1x40_S10000x40_0_1 (broadcastInDim S1x40 ![1] bcast_S40_S1x40_1 x) (ix2 i k) = x (ix1 k) := by
  rw [broadcastInDim_apply _ _ _ _ (ix2 (0 : Fin 1) k) (fun a => by match a with | ⟨0, _⟩ => rfl | ⟨1, _⟩ => rfl),
    broadcastInDim_apply _ _ _ _ (ix1 k) (fun a => by match a with | ⟨0, _⟩ => rfl)]

/-- The broadcast zero constant reads the zero word everywhere. -/
theorem zero128_apply (j : S10000x128.Idx) :
    broadcastInDim S10000x128 ![] bcast_S_S10000x128 (constant (F := Ideal) S_ .f32 0x00000000#32) j = Gcn.zeroW := by
  rw [broadcastInDim_apply _ _ _ _ ix0 (fun a => a.elim0)]
  rfl

/-- The broadcast zero constant reads the zero word everywhere. -/
theorem zero64_apply (j : S10000x64.Idx) :
    broadcastInDim S10000x64 ![] bcast_S_S10000x64 (constant (F := Ideal) S_ .f32 0x00000000#32) j = Gcn.zeroW := by
  rw [broadcastInDim_apply _ _ _ _ ix0 (fun a => a.elim0)]
  rfl

/-- The broadcast −∞ constant reads the −∞ word everywhere. -/
theorem ninfRow_apply (j : S10000.Idx) :
    broadcastInDim S10000 ![] bcast_S_S10000 (constant (F := Ideal) S_ .f32 0xFF800000#32) j = Gcn.ninfW := by
  rw [broadcastInDim_apply _ _ _ _ ix0 (fun a => a.elim0)]
  rfl

/-- A column vector broadcast along the columns reads its row's entry. -/
theorem colOuter_apply (w : FVec Ideal S10000x1 .f32) (r : Fin 10000) (q : Fin 40) :
    broadcastInDim S10000x40 ![0, 1] bcast_S10000x1_S10000x40_0_1 w (ix2 r q) = w (ix2 r (0 : Fin 1)) :=
  broadcastInDim_apply _ _ _ _ (ix2 r (0 : Fin 1)) (fun a => by match a with | ⟨0, _⟩ => rfl | ⟨1, _⟩ => rfl)

/-- A vector made a column reads the same entry. -/
theorem colInner_apply (v : FVec Ideal S10000 .f32) (r : Fin 10000) :
    broadcastInDim S10000x1 ![0] bcast_S10000_S10000x1_0 v (ix2 r (0 : Fin 1)) = v (ix1 r) :=
  broadcastInDim_apply _ _ _ _ (ix1 r) (fun a => by match a with | ⟨0, _⟩ => rfl)

/-! ## The three layers at an entry -/

/-- The first layer at (r, k): relu of the triple product, features transformed first, plus the bias. -/
theorem layer1T_apply (x0 : FVec Ideal S10000x128 .f32) (x1 : FVec Ideal S10000x10000 .f32) (x2 : FVec Ideal S128x128 .f32) (x3 : FVec Ideal S128 .f32)
    (r : Fin 10000) (k : Fin 128) :
    layer1T (F := Ideal) x0 x1 x2 x3 (ix2 r k) = max (Gcn.a_xw x1 x0 x2 r k + x3 (ix1 k)) Gcn.zeroW := by
  unfold layer1T Gcn.a_xw
  rw [maximumf_apply, addf_apply, dotAXW_apply, bias128_apply, zero128_apply]
  simp only [dotXW1_apply]

/-- The second layer at (r, n) from the first layer's output `h`. -/
theorem layer2T_apply (h : FVec Ideal S10000x128 .f32) (x1 : FVec Ideal S10000x10000 .f32) (x4 : FVec Ideal S128x64 .f32) (x5 : FVec Ideal S64 .f32)
    (r : Fin 10000) (n : Fin 64) :
    layer2T (F := Ideal) h x1 x4 x5 (ix2 r n)
      = max ((∑ j : Fin 10000, x1 (ix2 r j) * ∑ k : Fin 128, h (ix2 j k) * x4 (ix2 k n)) + x5 (ix1 n)) Gcn.zeroW := by
  unfold layer2T
  rw [maximumf_apply, addf_apply, dotAG_apply, bias64_apply, zero64_apply]
  simp only [dotHW2_apply]

/-- The classifier at (r, q) from the second layer's output `h`. -/
theorem layer3T_apply (h : FVec Ideal S10000x64 .f32) (x6 : FVec Ideal S64x40 .f32) (x7 : FVec Ideal S40 .f32) (r : Fin 10000) (q : Fin 40) :
    layer3T (F := Ideal) h x6 x7 (ix2 r q) = (∑ n : Fin 64, h (ix2 r n) * x6 (ix2 n q)) + x7 (ix1 q) := by
  unfold layer3T
  rw [addf_apply, dotHW3_apply, bias40_apply]

/-- The logits term is the specification's `logit` over `gR`. -/
theorem logitsT_eq (x0 : FVec Ideal S10000x128 .f32) (x1 : FVec Ideal S10000x10000 .f32) (x2 : FVec Ideal S128x128 .f32) (x3 : FVec Ideal S128 .f32)
    (x4 : FVec Ideal S128x64 .f32) (x5 : FVec Ideal S64 .f32) (x6 : FVec Ideal S64x40 .f32) (x7 : FVec Ideal S40 .f32) :
    logitsT (F := Ideal) x0 x1 x2 x3 x4 x5 x6 x7
      = fun i => Gcn.logit x1 (Gcn.gR x1 x0 x2 x3 x4) x5 x6 x7 (i 0) (i 1) := by
  funext i
  obtain ⟨r, q, rfl⟩ : ∃ (r : Fin 10000) (q : Fin 40), i = ix2 r q := ⟨i 0, i 1, eq_ix2 i⟩
  unfold logitsT
  rw [layer3T_apply]
  simp only [layer2T_apply, layer1T_apply]
  rfl

/-! ## The log-softmax at an entry -/

/-- Dropping the class axis of a 10000 × 40 array leaves the 10000 rows. -/
theorem hRed : S10000x40.Reduces [1] S10000 := by decide

/-- Row `r` with class `q` inserted is the entry (r, q). -/
theorem lift_row (r : Fin 10000) (q : Fin 40) : hRed.lift (ix1 r) q = ix2 r q :=
  funext fun a => Fin.ext (by match a with | ⟨0, _⟩ => rfl | ⟨1, _⟩ => rfl)

/-- The row maximum as the program forms it is the fold of `max` from −∞ over the row. -/
theorem rowMaxT_apply (z : FVec Ideal S10000x40 .f32) (r : Fin 10000) :
    rowMaxT (F := Ideal) z (ix1 r) = Gcn.rowMax (fun q => z (ix2 r q)) := by
  unfold rowMaxT Gcn.rowMax
  rw [maximumf_apply, ninfRow_apply,
    Host.reduce_eq_fold_single (FloatOps.maximumf (F := Ideal) (φ := .f32)) z _ reducesTo_S10000x40_S10000_d1 hRed h_S_ (ix1 r)]
  have hz : (z ∘ hRed.lift (ix1 r)) = fun q : Fin 40 => z (ix2 r q) := funext fun q => congrArg z (lift_row r q)
  rw [hz]
  exact max_eq_right ((Finset.le_fold_max _).mpr (Or.inl le_rfl))

/-- The shifted entries. -/
theorem shiftedT_apply (z : FVec Ideal S10000x40 .f32) (r : Fin 10000) (q : Fin 40) :
    shiftedT (F := Ideal) z (ix2 r q) = z (ix2 r q) - Gcn.rowMax (fun p => z (ix2 r p)) := by
  unfold shiftedT
  rw [subf_apply, colOuter_apply, colInner_apply, rowMaxT_apply]

/-- A row's sum from the zero word is the sum over the row. -/
theorem rowSum_apply (x : FVec Ideal S10000x40 .f32) (r : Fin 10000) :
    Host.reduceAdd (F := Ideal) x (constant (F := Ideal) S_ .f32 0x00000000#32) reducesTo_S10000x40_S10000_d1 h_S_ (ix1 r)
      = ∑ p : Fin 40, x (ix2 r p) := by
  simp only [Host.reduceAdd, Ideal.hostReduceAdd_def]
  rw [Ideal.hostReduceAdd_single reducesTo_S10000x40_S10000_d1 hRed, constant_apply, Ideal.ofBits_zero_f32, zero_add]
  exact Finset.sum_congr rfl fun p _ => congrArg x (lift_row r p)

theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-- The log-softmax term of an array is the specification's `lsm` of each row. -/
theorem lsmT_eq (z : FVec Ideal S10000x40 .f32) :
    lsmT (F := Ideal) z = fun i => Gcn.lsm (fun q => z (ix2 (i 0) q)) (i 1) := by
  funext i
  obtain ⟨r, q, rfl⟩ : ∃ (r : Fin 10000) (q : Fin 40), i = ix2 r q := ⟨i 0, i 1, eq_ix2 i⟩
  unfold lsmT Gcn.lsm
  rw [subf_apply, shiftedT_apply, colOuter_apply, hostLog_apply, colInner_apply, rowSum_apply]
  simp only [hostExp_apply, shiftedT_apply]

/-- The reference's result term is the specification's `head` over `gR`. -/
theorem value_eq (x0 : FVec Ideal S10000x128 .f32) (x1 : FVec Ideal S10000x10000 .f32) (x2 : FVec Ideal S128x128 .f32) (x3 : FVec Ideal S128 .f32)
    (x4 : FVec Ideal S128x64 .f32) (x5 : FVec Ideal S64 .f32) (x6 : FVec Ideal S64x40 .f32) (x7 : FVec Ideal S40 .f32) :
    lsmT (F := Ideal) (logitsT (F := Ideal) x0 x1 x2 x3 x4 x5 x6 x7)
      = Gcn.head x1 (Gcn.gR x1 x0 x2 x3 x4) x5 x6 x7 := by
  rw [logitsT_eq, lsmT_eq]
  rfl

/-! ## The run -/

/-- At the ideal values, from any memory with zero counters: every weakly fair execution of the reference terminates
    with the result the specification's `head` over `gR` of the arguments, and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v18)
          = Gcn.head (m ((c.tc : Thread nD τ).loc main_arg1))
              (Gcn.gR (m ((c.tc : Thread nD τ).loc main_arg1)) (m ((c.tc : Thread nD τ).loc main_arg0))
                (m ((c.tc : Thread nD τ).loc main_arg2)) (m ((c.tc : Thread nD τ).loc main_arg3))
                (m ((c.tc : Thread nD τ).loc main_arg4)))
              (m ((c.tc : Thread nD τ).loc main_arg5)) (m ((c.tc : Thread nD τ).loc main_arg6))
              (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (value_eq _ _ _ _ _ _ _ _), (h c).2⟩) (run_hand m ρ)

end Cert.ReferenceIdeal.Hand

end
-- ==== Proof.Assoc.lean ====
/-
  Associativity of the triple matrix product on the extended reals.

  On the extended reals a product does not distribute over a sum at the infinities, so (A · X) · W and A · (X · W)
  need not agree in general. Where every entry is (the image of) a real number they do: each product and each
  finite sum of images of reals is the image of the real product or sum, and in the reals the identity
      Σ_l (Σ_j a_j x_{j l}) w_l  =  Σ_j a_j (Σ_l x_{j l} w_l)
  is distributivity, an exchange of the two finite sums, and associativity of the product of three reals.
  The law is proved once over arbitrary finite index types and then read at the matrix entries.
-/
import proofs.«134880_g22385369546847_retrytranche2_1003_2_alg».proof.Proof.Spec
import Mathlib.Data.EReal.Basic
import Mathlib.Algebra.BigOperators.Ring.Finset

open scoped BigOperators

namespace Cert.Gcn

open Idealize.ShloMosaic Idealize.ShloMosaic.ValueIdx

/-- The inclusion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of a triple product with real entries, stated on the extended reals, over any finite index types:
    Σ_l (Σ_j a_j x_{j l}) w_l = Σ_j a_j (Σ_l x_{j l} w_l). -/
theorem assoc_real {ι κ : Type*} [Fintype ι] [Fintype κ] (a : ι → ℝ) (x : ι → κ → ℝ) (w : κ → ℝ) :
    (∑ l : κ, (∑ j : ι, (a j : EReal) * (x j l : EReal)) * (w l : EReal))
      = ∑ j : ι, (a j : EReal) * (∑ l : κ, (x j l : EReal) * (w l : EReal)) := by
  have hL : ∀ l : κ, (∑ j : ι, (a j : EReal) * (x j l : EReal)) * (w l : EReal)
      = ((((∑ j : ι, a j * x j l) * w l : ℝ)) : EReal) := by
    intro l
    rw [EReal.coe_mul, coe_sum]
    simp only [EReal.coe_mul]
  have hR : ∀ j : ι, (a j : EReal) * (∑ l : κ, (x j l : EReal) * (w l : EReal))
      = (((a j * ∑ l : κ, x j l * w l : ℝ)) : EReal) := by
    intro j
    rw [EReal.coe_mul, coe_sum]
    simp only [EReal.coe_mul]
  simp only [hL, hR, ← coe_sum]
  congr 1
  simp only [Finset.sum_mul, Finset.mul_sum]
  rw [Finset.sum_comm]
  refine Finset.sum_congr rfl fun j _ => Finset.sum_congr rfl fun l _ => ?_
  ring

/-- The two associations of the triple product agree at every entry when all entries of the three matrices are real. -/
theorem axw_eq (A : Arr2 10000 10000) (X : Arr2 10000 128) (W1 : Arr2 128 128)
    (hA : ∀ i, ∃ x : ℝ, A i = (x : EReal)) (hX : ∀ i, ∃ x : ℝ, X i = (x : EReal))
    (hW : ∀ i, ∃ x : ℝ, W1 i = (x : EReal)) (r : Fin 10000) (k : Fin 128) :
    axw A X W1 r k = a_xw A X W1 r k := by
  choose a ha using hA
  choose x hx using hX
  choose w hw using hW
  unfold axw a_xw
  simp only [ha, hx, hw]
  exact assoc_real (fun j => a (ix2 r j)) (fun j l => x (ix2 j l)) (fun l => w (ix2 l k))

/-- Hence the second layer's input is the same array in both programs. -/
theorem gK_eq_gR (A : Arr2 10000 10000) (X : Arr2 10000 128) (W1 : Arr2 128 128) (b1 : Arr1 128) (W2 : Arr2 128 64)
    (hA : ∀ i, ∃ x : ℝ, A i = (x : EReal)) (hX : ∀ i, ∃ x : ℝ, X i = (x : EReal))
    (hW : ∀ i, ∃ x : ℝ, W1 i = (x : EReal)) :
    gK A X W1 b1 W2 = gR A X W1 b1 W2 := by
  have h : axw A X W1 = a_xw A X W1 := by
    funext r k
    exact axw_eq A X W1 hA hX hW r k
  unfold gK gR
  rw [h]

end Cert.Gcn
-- ==== Proof.Finite.lean ====
/-
  From the precondition to real entries.

  The precondition says of each of the eight input arrays that every entry v satisfies |v| < +∞, where |v| is
  max v (−v) on the extended reals and +∞ is the value of the f32 pattern 0x7F800000; the eight statements are joined
  by "and", and each is itself an "and" over all the entries of one array. An extended real v with max v (−v) < ⊤ is
  neither ⊤ (then max v (−v) = ⊤) nor ⊥ (then −v = ⊤), so it is a real number. This is proved once for an array of
  any shape (`real_of_all`) and then read at the three arrays the triple product takes.
-/
import proofs.«134880_g22385369546847_retrytranche2_1003_2_alg».proof.Defs
import Idealize.ShloMosaic.Lib.ReduceAll
import Idealize.ShloMosaic.Lib.ValueIdx
import Idealize.ShloMosaic.PureOps.Ideal.Laws

noncomputable section

namespace Cert.Gcn

open Idealize.ShloMosaic Idealize.ShloMosaic.ValueIdx Idealize.SL.Sem
open Cert.Pre_finite_inputs (S_)

/-- The rank-0 shape has exactly one index. -/
instance : Subsingleton S_.Idx := ⟨fun _ _ => funext fun d => d.elim0⟩

/-- The f32 pattern 0x7F800000 (sign 0, exponent all ones, fraction 0) denotes +∞. -/
theorem pinf_eq_top : Ideal.ofBits .f32 0x7F800000#32 = (⊤ : EReal) := by
  simp [Ideal.ofBits, Ideal.ieee]

/-- A one-bit word made from a truth value is 1 exactly when the value is true. -/
theorem ofBool_one_iff (b : Bool) : BitVec.ofBool b = 1#1 ↔ b = true := by
  cases b <;> decide

/-- An extended real whose absolute value max v (−v) is strictly below ⊤ is a real number. -/
theorem real_of_abs_lt_top (v : EReal) (h : max v (-v) < (⊤ : EReal)) : ∃ x : ℝ, v = (x : EReal) := by
  induction v using EReal.rec with
  | bot => simp at h
  | coe x => exact ⟨x, rfl⟩
  | top => simp at h

/-- If the conjunction over all entries of "|x i| < +∞" holds of an array x of any shape, every entry of x is real. -/
theorem real_of_all {s : Shape} {axes : List (Fin s.rank)} (x : FVec Ideal s .f32)
    (bc : S_.BroadcastsInDim s (![] : Fin 0 → Fin s.rank)) (hr : s.ReducesTo axes S_) (hu : 0 < S_.numel)
    (init : IVec S_ 1) (j : S_.Idx)
    (e : Host.reduce IntOp.andi
          (cmpf .olt (Host.absf x) (broadcastInDim s ![] bc (constant S_ .f32 0x7F800000#32))) init hr hu j = 1#1) :
    ∀ i, ∃ r : ℝ, x i = (r : EReal) := by
  intro i
  have h1 := Host.reduce_andi_all _ init hr hu j e i
  have h2 : Ideal.cmp .olt (max (x i) (-(x i))) (Ideal.ofBits .f32 0x7F800000#32) = 1#1 := h1
  rw [pinf_eq_top] at h2
  unfold Ideal.cmp at h2
  rw [ofBool_one_iff, decide_eq_true_eq] at h2
  exact real_of_abs_lt_top _ h2

/-- Under the precondition, on every device, every entry of each of the three arrays the triple product takes
    (the features, the adjacency matrix, the first weights) is a real number. -/
theorem finite_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ x : ℝ, m ((c.tc : Thread Cert.KernelIdeal.nD Cert.KernelIdeal.τ).loc Cert.KernelIdeal.main_arg0) i = (x : EReal))
    ∧ (∀ i, ∃ x : ℝ, m ((c.tc : Thread Cert.KernelIdeal.nD Cert.KernelIdeal.τ).loc Cert.KernelIdeal.main_arg1) i = (x : EReal))
    ∧ (∀ i, ∃ x : ℝ, m ((c.tc : Thread Cert.KernelIdeal.nD Cert.KernelIdeal.τ).loc Cert.KernelIdeal.main_arg2) i = (x : EReal)) := by
  have e := congrFun (h c) ix0
  dsimp only [Cert.Pre_finite_inputs.fn, Cert.Pre_finite_inputs.fn_part1, Cert.Pre_finite_inputs.fn_part2, andi] at e
  simp only [IntOp.andi_eq_one] at e
  obtain ⟨⟨⟨⟨⟨⟨⟨e0, e1⟩, e2⟩, -⟩, -⟩, -⟩, -⟩, -⟩ := e
  exact ⟨real_of_all _ _ _ _ _ _ e0, real_of_all _ _ _ _ _ _ e1, real_of_all _ _ _ _ _ _ e2⟩

end Cert.Gcn

end
-- ==== Proof.lean ====
/-
  The proof of `Cert.Claim`: a dense two-layer graph convolution with a linear classifier and a row-wise log-softmax,
  computed by a kernel in two row-blocked passes over the adjacency matrix, against the plain reference.

  With A the adjacency matrix, X the features, W1, W2, W3 the weights and b1, b2, b3 the biases, both programs end with

      log-softmax by rows of   relu (A · G + b2) · W3 + b3,       G = relu (P + b1) · W2,

  where the kernel forms the triple product as P = (A · X) · W1 (its first pass multiplies a block of rows of A into X,
  then into W1) and the reference as P = A · (X · W1). At the ideal instance every change of float format is the
  identity, a matrix product into a zero accumulator and the host's product are the same sum over the contracted
  coordinate, a lane reduction and the host's reduction are the same sum or maximum over a row, and the reference's extra
  maximum with −∞ is absorbed by the row maximum that already starts from −∞. What remains is the association of the
  triple product. On the extended reals a product distributes over a sum only away from the infinities, so this is where
  the precondition is used: every entry of A, X and W1 is a real number, and for real entries the two associations are
  equal by exchanging the two finite sums.

  The kernel side: each pass's output array is one function of the arrays the pass finds (the 25 blocks of 400 rows tile
  it), the second pass finds the first pass's output in its second window, and the host operations before the passes
  only change formats and re-lay the biases as one-row matrices. The reference side: its run read back operation by
  operation. The three frames: the two kernels' are the generated ones; the reference's is its run with the result
  dropped. The idealization rewrote no operation, so that conjunct is trivial.
-/
import proofs.«134880_g22385369546847_retrytranche2_1003_2_alg».proof.Defs
import proofs.«134880_g22385369546847_retrytranche2_1003_2_alg».proof.Proof.Gen.Kernel
import proofs.«134880_g22385369546847_retrytranche2_1003_2_alg».proof.Proof.Gen.Kernel.Skeleton
import proofs.«134880_g22385369546847_retrytranche2_1003_2_alg».proof.Proof.Gen.Kernel.Launch
import proofs.«134880_g22385369546847_retrytranche2_1003_2_alg».proof.Proof.Gen.Kernel.Points
import proofs.«134880_g22385369546847_retrytranche2_1003_2_alg».proof.Proof.Gen.Kernel.Frame
import proofs.«134880_g22385369546847_retrytranche2_1003_2_alg».proof.Proof.Gen.KernelIdeal
import proofs.«134880_g22385369546847_retrytranche2_1003_2_alg».proof.Proof.Gen.KernelIdeal.Skeleton
import proofs.«134880_g22385369546847_retrytranche2_1003_2_alg».proof.Proof.Gen.KernelIdeal.Launch
import proofs.«134880_g22385369546847_retrytranche2_1003_2_alg».proof.Proof.Gen.KernelIdeal.Points
import proofs.«134880_g22385369546847_retrytranche2_1003_2_alg».proof.Proof.Gen.KernelIdeal.Frame
import proofs.«134880_g22385369546847_retrytranche2_1003_2_alg».proof.Proof.Gen.ReferenceIdeal
import proofs.«134880_g22385369546847_retrytranche2_1003_2_alg».proof.Proof.Gen.Pre_finite_inputs
import proofs.«134880_g22385369546847_retrytranche2_1003_2_alg».proof.Proof.KernelValue
import proofs.«134880_g22385369546847_retrytranche2_1003_2_alg».proof.Proof.RefValue
import proofs.«134880_g22385369546847_retrytranche2_1003_2_alg».proof.Proof.Assoc
import proofs.«134880_g22385369546847_retrytranche2_1003_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_k : @Cert.frame_Kernel Cert.Kernel.Gen.facts Cert.Pre_finite_inputs.Gen.facts :=
  fun m ρ _ => Cert.Kernel.Gen.frame m ρ

/-- The idealized kernel runs and leaves its arguments alone. -/
theorem frame_ki : @Cert.frame_KernelIdeal Cert.KernelIdeal.Gen.facts Cert.Pre_finite_inputs.Gen.facts :=
  fun m ρ _ => Cert.KernelIdeal.Gen.frame m ρ

/-- The idealized reference runs and leaves its arguments alone: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Hand.ref_run m ρ)

/-- From memories that agree on the arguments, both idealized programs end with the same result array: the kernel's is
    `head A (gK …)`, the reference's `head A (gR …)` of the same arrays, and under the precondition the entries of A, X
    and W1 are real numbers, where the two associations of the triple product agree. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.Gcn.head (m ((c.tc : Thread Cert.KernelIdeal.nD Cert.KernelIdeal.τ).loc Cert.KernelIdeal.main_arg1))
      (Cert.Gcn.gK (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Whole.run m ρ, ?_⟩
  refine (θ_run Cert.ReferenceIdeal.defs _ _).mono (fun _ h c => ⟨(h c).1.trans ?_, (h c).2⟩)
    (Cert.ReferenceIdeal.Hand.ref_run m' ρ')
  obtain ⟨h0, h1, h2⟩ := Cert.Gcn.finite_of_pre m hpre c
  obtain ⟨a0, a1, a2, a3, a4, a5, a6, a7⟩ := hagree c
  rw [a0, a1, a2, a3, a4, a5, a6, a7]
  beta_reduce
  rw [Cert.Gcn.gK_eq_gR _ _ _ _ _ h1 h0 h2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
